-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 56
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S1x256, .f32⟩
  | .hbm, ⟨39, _⟩ => ⟨S50000x256, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S256x128, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S128_S1x128 : S128.ShapeCasts S1x128
  shapeCasts_S2000x256_S2000x256 : S2000x256.ShapeCasts S2000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel program's run with its result named.

  The program is four segments: host operations, the first kernel over its 25 row blocks, host operations, the
  second kernel over its 25 row blocks. Every weakly fair execution terminates, and the final memory holds at every
  buffer that is not scratch the contents the segments leave one after the other: in particular the result
  buffer holds what the second kernel's write-backs leave, and the arguments are as launched.
-/
import proofs.«141152_j33432025432488_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents, the arguments as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gen

end
-- ==== Proof.KBody.lean ====
/-
  What the two kernel bodies compute, read at an index of the block, at the exact instance.

  First body (a block of 2000 rows): row `r` of the first output is
  `max (((a[r,·]·inv[r]) · Wl) + (x[r,·] · Wr) + b) 0` — the aggregated rows scaled by the per-row reciprocal, two
  products with 128-row weight matrices, the bias row, the positive part — and row `r` of the second output is that row
  times the 256-row matrix `W2l`. Second body: `(h[r,·] · W2r) + p[r,·]·inv[r] + b2`.
  A product into a zero accumulator is the plain sum over the contracted coordinate; the changes of float format
  are the identity at the exact instance.
-/
import proofs.«141152_j33432025432488_2_alg».proof.Proof.Gen.KernelIdeal.Skeleton
import Idealize.ShloMosaic.Lib.KernelVsHost
import Idealize.ShloMosaic.Lib.StackMember
import Idealize.ShloMosaic.Lib.Pipeline.Value
import Idealize.ShloMosaic.Lib.ValueIdx
import Idealize.ShloMosaic.Lib.ValueLayout
import Idealize.ShloMosaic.Lib.IdealHost

noncomputable section

namespace Cert.Sage.KBody

open Idealize.ShloMosaic Idealize.ShloMosaic.ValueIdx Cert.KernelIdeal Cert.KernelIdeal.Gen

/-- A column `[a, 1]` broadcast along the second axis, read at `(r, c)`, is the column at `r`. -/
theorem bcastCol_apply {α : Type} {a b : Nat} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) ?_
  intro ax
  match ax with
  | ⟨0, _⟩ =>
    show r.val = if a = 1 then 0 else r.val
    split
    · have := r.isLt; omega
    · rfl
  | ⟨1, _⟩ => rfl

/-- A row `[1, b]` broadcast along the first axis, read at `(r, c)`, is the row at `c`. -/
theorem bcastRow_apply {α : Type} {a b : Nat} (x : (⟨2, ![1, b]⟩ : Shape).Idx → α)
    (h : (⟨2, ![1, b]⟩ : Shape).Broadcasts ⟨2, ![a, b]⟩) (r : Fin a) (c : Fin b) :
    broadcastTo ⟨2, ![a, b]⟩ x h (ix2 r c) = x (ix2 (0 : Fin 1) c) := by
  refine broadcastTo_apply x h (ix2 r c) (ix2 (0 : Fin 1) c) ?_
  intro ax
  match ax with
  | ⟨0, _⟩ => rfl
  | ⟨1, _⟩ =>
    show c.val = if b = 1 then 0 else c.val
    split
    · have := c.isLt; omega
    · rfl

/-- A matrix product into the zero accumulator, with the plain dimension numbers, read at `(a, b)`: the sum over the
    contracted coordinate of the products of the entries. -/
theorem mm_apply {M K N : Nat} {φ₁ φ₂ : FTy} (d : DotDims ⟨2, ![M, K]⟩ ⟨2, ![K, N]⟩ ⟨2, ![M, N]⟩)
    (hd : d = DotDims.plain M K N) (A : FVec Ideal ⟨2, ![M, K]⟩ φ₁) (B : FVec Ideal ⟨2, ![K, N]⟩ φ₂) (a : Fin M) (b : Fin N) :
    matmul d none A B (constant ⟨2, ![M, N]⟩ .f32 0x00000000#32) (ix2 a b) = ∑ c : Fin K, A (ix2 a c) * B (ix2 c b) := by
  subst hd
  rw [matmul_zero_eq_dotGeneral]
  exact StackMember.dotGeneral_plain_apply none A B a b

/-- The first body's first stored value at `(r, j)`. -/
theorem pay1_apply (v0 : FVec Ideal S2000x1 .f32) (v2 v7 : FVec Ideal S2000x128 .f32) (v9 v11 : FVec Ideal S128x256 .f32)
    (v16 : FVec Ideal S1x256 .f32) (r : Fin 2000) (j : Fin 256) :
    k0_pay1 (F := Ideal) v0 v2 v7 v9 v11 v16 (ix2 r j)
      = max (((∑ k : Fin 128, (v2 (ix2 r k) * v0 (ix2 r (0 : Fin 1))) * v9 (ix2 k j))
              + ∑ k : Fin 128, v7 (ix2 r k) * v11 (ix2 k j)) + v16 (ix2 (0 : Fin 1) j)) 0 := by
  unfold k0_pay1
  simp only [maximumf_apply, addf_apply, broadcast_apply]
  rw [mm_apply dot_S2000x128_S128x256_S2000x256_1_0_0_1_n_n rfl, mm_apply dot_S2000x128_S128x256_S2000x256_1_0_0_1_n_n rfl,
    bcastRow_apply]
  simp only [truncf_apply, mulf_apply, shapeCast_self, bcastCol_apply]
  rw [show (FloatOps.ofBits (F := Ideal) .f32 0x00000000#32 : EReal) = 0 from Ideal.ofBits_zero_f32]

/-- The first body's second stored value at `(r, g)`: the first stored row times the third weight matrix. -/
theorem pay2_apply (v0 : FVec Ideal S2000x1 .f32) (v2 v7 : FVec Ideal S2000x128 .f32) (v9 v11 : FVec Ideal S128x256 .f32)
    (v16 : FVec Ideal S1x256 .f32) (v23 : FVec Ideal S256x128 .f32) (r : Fin 2000) (g : Fin 128) :
    k0_pay2 (F := Ideal) v0 v2 v7 v9 v11 v16 v23 (ix2 r g)
      = ∑ j : Fin 256, k0_pay1 (F := Ideal) v0 v2 v7 v9 v11 v16 (ix2 r j) * v23 (ix2 j g) := by
  unfold k0_pay2
  show matmul dot_S2000x256_S256x128_S2000x128_1_0_0_1_n_n none
      (truncf .bf16 (k0_pay1 (F := Ideal) v0 v2 v7 v9 v11 v16) bitsLt_bf16_f32) (truncf .bf16 v23 bitsLt_bf16_f32)
      (constant S2000x128 .f32 0x00000000#32) (ix2 r g) = _
  rw [mm_apply dot_S2000x256_S256x128_S2000x128_1_0_0_1_n_n rfl]
  simp only [truncf_apply]

/-- The second body's stored value at `(r, g)`. -/
theorem pay3_apply (v0 : FVec Ideal S2000x1 .f32) (v2 : FVec Ideal S2000x128 .f32) (v6 : FVec Ideal S2000x256 .f32)
    (v9 : FVec Ideal S256x128 .f32) (v13 : FVec Ideal S1x128 .f32) (r : Fin 2000) (g : Fin 128) :
    k1_pay1 (F := Ideal) v0 v2 v6 v9 v13 (ix2 r g)
      = ((∑ j : Fin 256, v6 (ix2 r j) * v9 (ix2 j g)) + v2 (ix2 r g) * v0 (ix2 r (0 : Fin 1))) + v13 (ix2 (0 : Fin 1) g) := by
  unfold k1_pay1
  simp only [addf_apply]
  rw [mm_apply dot_S2000x256_S256x128_S2000x128_1_0_0_1_n_n rfl, bcastRow_apply]
  simp only [truncf_apply, mulf_apply, shapeCast_self, bcastCol_apply]

end Cert.Sage.KBody

end
-- ==== Proof.KRegion0.lean ====
/-
  The first kernel over its grid, as two functions of the arrays it finds.

  Point `t` of the 25 reads rows `2000·t … 2000·t + 1999` of the neighbour sums, of the reciprocal counts and of the
  features, the whole of three weight matrices and of the bias row, and writes rows `2000·t …` of both results: the
  blocks tile both arrays. After the last point the first array holds, at row `n` and column `j`,
  `max ((a[n,·]·inv[n]) · Wl[·,j] + x[n,·] · Wr[·,j] + b[j]) 0`, and the second, at column `g`, that row times
  `W2[·,g]`.
-/
import proofs.«141152_j33432025432488_2_alg».proof.Proof.Gen.KernelIdeal.Frame
import proofs.«141152_j33432025432488_2_alg».proof.Proof.KBody

set_option maxRecDepth 16384

noncomputable section

namespace Cert.Sage.KRegion0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The hidden layer at row `n`, column `j`. -/
def hid0 (a : S50000x128.Idx → EReal) (inv : S50000x1.Idx → EReal) (x : S50000x128.Idx → EReal)
    (wl wr : S128x256.Idx → EReal) (b : S1x256.Idx → EReal) (n : Fin 50000) (j : Fin 256) : EReal :=
  max (((∑ k : Fin 128, (a (ix2 n k) * inv (ix2 n (0 : Fin 1))) * wl (ix2 k j))
        + ∑ k : Fin 128, x (ix2 n k) * wr (ix2 k j)) + b (ix2 (0 : Fin 1) j)) 0

/-- The projected hidden layer at row `n`, column `g`. -/
def prj0 (a : S50000x128.Idx → EReal) (inv : S50000x1.Idx → EReal) (x : S50000x128.Idx → EReal)
    (wl wr : S128x256.Idx → EReal) (b : S1x256.Idx → EReal) (w2 : S256x128.Idx → EReal) (n : Fin 50000) (g : Fin 128) : EReal :=
  ∑ j : Fin 256, hid0 a inv x wl wr b n j * w2 (ix2 j g)

/-- The block index maps over the grid: the row-blocked windows move with the point, the others stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `2000·t + r` is a row of the array. -/
theorem row_lt (t : Fin cfg0.N) (r : Fin 2000) : 2000 * t.val + r.val < 50000 := by
  have hN : cfg0.N = 25 := N_0
  have := t.isLt; have := r.isLt; omega

/-- The array row of block row `r` at point `t`. -/
abbrev arow (t : Fin cfg0.N) (r : Fin 2000) : Fin 50000 := ⟨2000 * t.val + r.val, row_lt t r⟩

theorem iblk_0 (c : Dev nD) (t : Fin cfg0.N) (r : Fin 2000) (g : Fin 128) :
    (iblk0 V c 0 t : S2000x128.Idx → EReal) (ix2 r g) = (V c main_v22 : S50000x128.Idx → EReal) (ix2 (arow t r) g) := by
  obtain ⟨e0, e1, -, -, -, -, -, -, -, -, -, -, -, -, -, -, -, -⟩ := idx_facts t
  unfold iblk0
  rw [View.read_apply]
  show (V c main_v22 : S50000x128.Idx → EReal) _ = _
  congr 1
  funext a
  apply Fin.ext
  match a with
  | ⟨0, _⟩ => show win0_0.index t (0 : Fin 2) * 2000 + 1 * r.val = 2000 * t.val + r.val; rw [e0]; omega
  | ⟨1, _⟩ => show win0_0.index t (1 : Fin 2) * 128 + 1 * g.val = g.val; rw [e1]; omega

theorem iblk_1 (c : Dev nD) (t : Fin cfg0.N) (r : Fin 2000) (g : Fin 1) :
    (iblk0 V c 1 t : S2000x1.Idx → EReal) (ix2 r g) = (V c main_v12 : S50000x1.Idx → EReal) (ix2 (arow t r) g) := by
  obtain ⟨-, -, e0, e1, -, -, -, -, -, -, -, -, -, -, -, -, -, -⟩ := idx_facts t
  unfold iblk0
  rw [View.read_apply]
  show (V c main_v12 : S50000x1.Idx → EReal) _ = _
  congr 1
  funext a
  apply Fin.ext
  match a with
  | ⟨0, _⟩ => show win0_1.index t (0 : Fin 2) * 2000 + 1 * r.val = 2000 * t.val + r.val; rw [e0]; omega
  | ⟨1, _⟩ => show win0_1.index t (1 : Fin 2) * 1 + 1 * g.val = g.val; rw [e1]; omega

theorem iblk_2 (c : Dev nD) (t : Fin cfg0.N) (r : Fin 2000) (g : Fin 128) :
    (iblk0 V c 2 t : S2000x128.Idx → EReal) (ix2 r g) = (V c main_arg0 : S50000x128.Idx → EReal) (ix2 (arow t r) g) := by
  obtain ⟨-, -, -, -, e0, e1, -, -, -, -, -, -, -, -, -, -, -, -⟩ := idx_facts t
  unfold iblk0
  rw [View.read_apply]
  show (V c main_arg0 : S50000x128.Idx → EReal) _ = _
  congr 1
  funext a
  apply Fin.ext
  match a with
  | ⟨0, _⟩ => show win0_2.index t (0 : Fin 2) * 2000 + 1 * r.val = 2000 * t.val + r.val; rw [e0]; omega
  | ⟨1, _⟩ => show win0_2.index t (1 : Fin 2) * 128 + 1 * g.val = g.val; rw [e1]; omega

theorem iblk_3 (c : Dev nD) (t : Fin cfg0.N) (r : Fin 128) (g : Fin 256) :
    (iblk0 V c 3 t : S128x256.Idx → EReal) (ix2 r g) = (V c main_arg2 : S128x256.Idx → EReal) (ix2 r g) := by
  obtain ⟨-, -, -, -, -, -, e0, e1, -, -, -, -, -, -, -, -, -, -⟩ := idx_facts t
  unfold iblk0
  rw [View.read_apply]
  show (V c main_arg2 : S128x256.Idx → EReal) _ = _
  congr 1
  funext a
  apply Fin.ext
  match a with
  | ⟨0, _⟩ => show win0_3.index t (0 : Fin 2) * 128 + 1 * r.val = r.val; rw [e0]; omega
  | ⟨1, _⟩ => show win0_3.index t (1 : Fin 2) * 256 + 1 * g.val = g.val; rw [e1]; omega

theorem iblk_4 (c : Dev nD) (t : Fin cfg0.N) (r : Fin 128) (g : Fin 256) :
    (iblk0 V c 4 t : S128x256.Idx → EReal) (ix2 r g) = (V c main_arg4 : S128x256.Idx → EReal) (ix2 r g) := by
  obtain ⟨-, -, -, -, -, -, -, -, e0, e1, -, -, -, -, -, -, -, -⟩ := idx_facts t
  unfold iblk0
  rw [View.read_apply]
  show (V c main_arg4 : S128x256.Idx → EReal) _ = _
  congr 1
  funext a
  apply Fin.ext
  match a with
  | ⟨0, _⟩ => show win0_4.index t (0 : Fin 2) * 128 + 1 * r.val = r.val; rw [e0]; omega
  | ⟨1, _⟩ => show win0_4.index t (1 : Fin 2) * 256 + 1 * g.val = g.val; rw [e1]; omega

theorem iblk_5 (c : Dev nD) (t : Fin cfg0.N) (r : Fin 256) (g : Fin 128) :
    (iblk0 V c 5 t : S256x128.Idx → EReal) (ix2 r g) = (V c main_arg5 : S256x128.Idx → EReal) (ix2 r g) := by
  obtain ⟨-, -, -, -, -, -, -, -, -, -, e0, e1, -, -, -, -, -, -⟩ := idx_facts t
  unfold iblk0
  rw [View.read_apply]
  show (V c main_arg5 : S256x128.Idx → EReal) _ = _
  congr 1
  funext a
  apply Fin.ext
  match a with
  | ⟨0, _⟩ => show win0_5.index t (0 : Fin 2) * 256 + 1 * r.val = r.val; rw [e0]; omega
  | ⟨1, _⟩ => show win0_5.index t (1 : Fin 2) * 128 + 1 * g.val = g.val; rw [e1]; omega

theorem iblk_6 (c : Dev nD) (t : Fin cfg0.N) (r : Fin 1) (g : Fin 256) :
    (iblk0 V c 6 t : S1x256.Idx → EReal) (ix2 r g) = (V c main_v23 : S1x256.Idx → EReal) (ix2 r g) := by
  obtain ⟨-, -, -, -, -, -, -, -, -, -, -, -, e0, e1, -, -, -, -⟩ := idx_facts t
  unfold iblk0
  rw [View.read_apply]
  show (V c main_v23 : S1x256.Idx → EReal) _ = _
  congr 1
  funext a
  apply Fin.ext
  match a with
  | ⟨0, _⟩ => show win0_6.index t (0 : Fin 2) * 1 + 1 * r.val = r.val; rw [e0]; omega
  | ⟨1, _⟩ => show win0_6.index t (1 : Fin 2) * 256 + 1 * g.val = g.val; rw [e1]; omega

/-- Where an element of the first output's block at point `t` sits in the array. -/
theorem emb_7 (t : Fin cfg0.N) (r : Fin 2000) (j : Fin 256) :
    (((cfg0.win 7).blk t).view.emb (ix2 r j) : S50000x256.Idx) = ix2 (arow t r) j := by
  obtain ⟨-, -, -, -, -, -, -, -, -, -, -, -, -, -, e0, e1, -, -⟩ := idx_facts t
  funext a
  apply Fin.ext
  match a with
  | ⟨0, _⟩ => show win0_7.index t (0 : Fin 2) * 2000 + 1 * r.val = 2000 * t.val + r.val; rw [e0]; omega
  | ⟨1, _⟩ => show win0_7.index t (1 : Fin 2) * 256 + 1 * j.val = j.val; rw [e1]; omega

/-- Where an element of the second output's block at point `t` sits in the array. -/
theorem emb_8 (t : Fin cfg0.N) (r : Fin 2000) (g : Fin 128) :
    (((cfg0.win 8).blk t).view.emb (ix2 r g) : S50000x128.Idx) = ix2 (arow t r) g := by
  obtain ⟨-, -, -, -, -, -, -, -, -, -, -, -, -, -, -, -, e0, e1⟩ := idx_facts t
  funext a
  apply Fin.ext
  match a with
  | ⟨0, _⟩ => show win0_8.index t (0 : Fin 2) * 2000 + 1 * r.val = 2000 * t.val + r.val; rw [e0]; omega
  | ⟨1, _⟩ => show win0_8.index t (1 : Fin 2) * 128 + 1 * g.val = g.val; rw [e1]; omega

/-- The first stored value of point `t` at block row `r` is the hidden layer at the array row. -/
theorem pay1_at (c : Dev nD) (t : Fin cfg0.N) (r : Fin 2000) (j : Fin 256) :
    k0_pay1 (F := Ideal) (iblk0 V c 1 t) (iblk0 V c 0 t) (iblk0 V c 2 t) (iblk0 V c 3 t) (iblk0 V c 4 t) (iblk0 V c 6 t) (ix2 r j)
      = hid0 (V c main_v22) (V c main_v12) (V c main_arg0) (V c main_arg2) (V c main_arg4) (V c main_v23) (arow t r) j := by
  rw [KBody.pay1_apply]
  unfold hid0
  simp only [iblk_0, iblk_1, iblk_2, iblk_3, iblk_4, iblk_6]

/-- What point `t` writes back to the first output is block `t` of the hidden layer. -/
theorem flushed7_eq (c : Dev nD) (t : Fin cfg0.N) :
    (dat0 V c).flushed 7 t = ((cfg0.win 7).blk t).view.read (Elt Ideal)
      (fun i : S50000x256.Idx => hid0 (V c main_v22) (V c main_v12) (V c main_arg0) (V c main_arg2) (V c main_arg4) (V c main_v23) (i 0) (i 1)) := by
  show (cfg0.win 7).cut (grid0.coords t) ((dat0 V c).after 7 t) = _
  rw [after0_7]
  unfold out0_7
  rw [View.canon_unit_zero hz]
  simp only [View.ld_unit_zero (S := S2000x1) hz, View.ld_unit_zero (S := S2000x128) hz,
    View.ld_unit_zero (S := S128x256) hz, View.ld_unit_zero (S := S1x256) hz]
  funext y
  obtain ⟨r, j, rfl⟩ : ∃ (r : Fin 2000) (j : Fin 256), y = ix2 r j := ⟨y 0, y 1, eq_ix2 y⟩
  rw [View.read_apply, emb_7]
  exact pay1_at V c t r j

/-- What point `t` writes back to the second output is block `t` of the projected hidden layer. -/
theorem flushed8_eq (c : Dev nD) (t : Fin cfg0.N) :
    (dat0 V c).flushed 8 t = ((cfg0.win 8).blk t).view.read (Elt Ideal)
      (fun i : S50000x128.Idx => prj0 (V c main_v22) (V c main_v12) (V c main_arg0) (V c main_arg2) (V c main_arg4) (V c main_v23) (V c main_arg5) (i 0) (i 1)) := by
  show (cfg0.win 8).cut (grid0.coords t) ((dat0 V c).after 8 t) = _
  rw [after0_8]
  unfold out0_8
  rw [View.canon_unit_zero hz]
  simp only [View.ld_unit_zero (S := S2000x1) hz, View.ld_unit_zero (S := S2000x128) hz,
    View.ld_unit_zero (S := S128x256) hz, View.ld_unit_zero (S := S1x256) hz, View.ld_unit_zero (S := S256x128) hz]
  funext y
  obtain ⟨r, g, rfl⟩ : ∃ (r : Fin 2000) (g : Fin 128), y = ix2 r g := ⟨y 0, y 1, eq_ix2 y⟩
  rw [View.read_apply, emb_8]
  show k0_pay2 (F := Ideal) (iblk0 V c 1 t) (iblk0 V c 0 t) (iblk0 V c 2 t) (iblk0 V c 3 t) (iblk0 V c 4 t) (iblk0 V c 6 t) (iblk0 V c 5 t) (ix2 r g)
    = prj0 (V c main_v22) (V c main_v12) (V c main_arg0) (V c main_arg2) (V c main_arg4) (V c main_v23) (V c main_arg5) (arow t r) g
  rw [KBody.pay2_apply]
  unfold prj0
  refine Finset.sum_congr rfl fun j _ => ?_
  rw [pay1_at V c t r j, iblk_5]

theorem mem_blk7 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v24_0).slice (win0_7.rect t)).set ↔ _
  rw [View.set_slice_whole, Rect.mem_set_unit]
  exact Iff.rfl

theorem mem_blk8 (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v24_1).slice (win0_8.rect t)).set ↔ _
  rw [View.set_slice_whole, Rect.mem_set_unit]
  exact Iff.rfl

/-- Every index of the first output is in some point's block: row `n` in block `n / 2000`. -/
theorem cover7 (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_7 _, ?_⟩
  obtain ⟨-, -, -, -, -, -, -, -, -, -, -, -, -, -, e0, e1, -, -⟩ := idx_facts ⟨(i 0).val / 2000, by rw [hN]; omega⟩
  rw [mem_blk7]
  intro a
  match a with
  | ⟨0, _⟩ =>
    show win0_7.index _ (0 : Fin 2) * 2000 ≤ (i 0).val ∧ (i 0).val < win0_7.index _ (0 : Fin 2) * 2000 + 2000
    rw [e0]; show (i 0).val / 2000 * 2000 ≤ (i 0).val ∧ (i 0).val < (i 0).val / 2000 * 2000 + 2000; omega
  | ⟨1, _⟩ =>
    show win0_7.index _ (1 : Fin 2) * 256 ≤ (i 1).val ∧ (i 1).val < win0_7.index _ (1 : Fin 2) * 256 + 256
    rw [e1]; omega

/-- Every index of the second output is in some point's block. -/
theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_8 _, ?_⟩
  obtain ⟨-, -, -, -, -, -, -, -, -, -, -, -, -, -, -, -, e0, e1⟩ := idx_facts ⟨(i 0).val / 2000, by rw [hN]; omega⟩
  rw [mem_blk8]
  intro a
  match a with
  | ⟨0, _⟩ =>
    show win0_8.index _ (0 : Fin 2) * 2000 ≤ (i 0).val ∧ (i 0).val < win0_8.index _ (0 : Fin 2) * 2000 + 2000
    rw [e0]; show (i 0).val / 2000 * 2000 ≤ (i 0).val ∧ (i 0).val < (i 0).val / 2000 * 2000 + 2000; omega
  | ⟨1, _⟩ =>
    show win0_8.index _ (1 : Fin 2) * 128 ≤ (i 1).val ∧ (i 1).val < win0_8.index _ (1 : Fin 2) * 128 + 128
    rw [e1]; omega

/-- The first output array after the last point. -/
theorem final7 (c : Dev nD) : (dat0 V c).arrAt 7 cfg0.N
    = fun i : S50000x256.Idx => hid0 (V c main_v22) (V c main_v12) (V c main_arg0) (V c main_arg2) (V c main_arg4) (V c main_v23) (i 0) (i 1) :=
  (dat0 V c).arrAt_eq_of_cover 7 _ (fun t _ => flushed7_eq V c t) cover7

/-- The second output array after the last point. -/
theorem final8 (c : Dev nD) : (dat0 V c).arrAt 8 cfg0.N
    = fun i : S50000x128.Idx => prj0 (V c main_v22) (V c main_v12) (V c main_arg0) (V c main_arg2) (V c main_arg4) (V c main_v23) (V c main_arg5) (i 0) (i 1) :=
  (dat0 V c).arrAt_eq_of_cover 8 _ (fun t _ => flushed8_eq V c t) cover8

end Cert.Sage.KRegion0

end
-- ==== Proof.KRegion1.lean ====
/-
  The second kernel over its grid, as one function of the arrays it finds.

  Point `t` of the 25 reads rows `2000·t … 2000·t + 1999` of the aggregated projection, of the reciprocal counts and of
  the hidden layer, the whole of the weight matrix and of the bias row, and writes rows `2000·t …` of the result: the
  blocks tile the result array, so after the last point the array holds, at row `n` and column `g`,
  `(h[n,·] · W[·,g]) + a[n,g] · inv[n] + b[g]`.
-/
import proofs.«141152_j33432025432488_2_alg».proof.Proof.Gen.KernelIdeal.Frame
import proofs.«141152_j33432025432488_2_alg».proof.Proof.KBody

set_option maxRecDepth 16384

noncomputable section

namespace Cert.Sage.KRegion1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The result at row `n`, column `g`. -/
def out1 (a : S50000x128.Idx → EReal) (inv : S50000x1.Idx → EReal) (h : S50000x256.Idx → EReal)
    (w : S256x128.Idx → EReal) (b : S1x128.Idx → EReal) (n : Fin 50000) (g : Fin 128) : EReal :=
  ((∑ j : Fin 256, h (ix2 n j) * w (ix2 j g)) + a (ix2 n g) * inv (ix2 n (0 : Fin 1))) + b (ix2 (0 : Fin 1) g)

/-- The block index maps over the grid: the row-blocked windows move with the point, the others stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `2000·t + r` is a row of the array. -/
theorem row_lt (t : Fin cfg1.N) (r : Fin 2000) : 2000 * t.val + r.val < 50000 := by
  have hN : cfg1.N = 25 := N_1
  have := t.isLt; have := r.isLt; omega

/-- The array row of block row `r` at point `t`. -/
abbrev arow (t : Fin cfg1.N) (r : Fin 2000) : Fin 50000 := ⟨2000 * t.val + r.val, row_lt t r⟩

theorem iblk_0 (c : Dev nD) (t : Fin cfg1.N) (r : Fin 2000) (g : Fin 128) :
    (iblk1 V c 0 t : S2000x128.Idx → EReal) (ix2 r g) = (V c main_v34 : S50000x128.Idx → EReal) (ix2 (arow t r) g) := by
  obtain ⟨e0, e1, -⟩ := idx_facts t
  unfold iblk1
  rw [View.read_apply]
  show (V c main_v34 : S50000x128.Idx → EReal) _ = _
  congr 1
  funext a
  apply Fin.ext
  match a with
  | ⟨0, _⟩ => show win1_0.index t (0 : Fin 2) * 2000 + 1 * r.val = 2000 * t.val + r.val; rw [e0]; omega
  | ⟨1, _⟩ => show win1_0.index t (1 : Fin 2) * 128 + 1 * g.val = g.val; rw [e1]; omega

theorem iblk_1 (c : Dev nD) (t : Fin cfg1.N) (r : Fin 2000) (z : Fin 1) :
    (iblk1 V c 1 t : S2000x1.Idx → EReal) (ix2 r z) = (V c main_v12 : S50000x1.Idx → EReal) (ix2 (arow t r) z) := by
  obtain ⟨-, -, e0, e1, -⟩ := idx_facts t
  unfold iblk1
  rw [View.read_apply]
  show (V c main_v12 : S50000x1.Idx → EReal) _ = _
  congr 1
  funext a
  apply Fin.ext
  match a with
  | ⟨0, _⟩ => show win1_1.index t (0 : Fin 2) * 2000 + 1 * r.val = 2000 * t.val + r.val; rw [e0]; omega
  | ⟨1, _⟩ => show win1_1.index t (1 : Fin 2) * 1 + 1 * z.val = z.val; rw [e1]; omega

theorem iblk_2 (c : Dev nD) (t : Fin cfg1.N) (r : Fin 2000) (j : Fin 256) :
    (iblk1 V c 2 t : S2000x256.Idx → EReal) (ix2 r j) = (V c main_v24_0 : S50000x256.Idx → EReal) (ix2 (arow t r) j) := by
  obtain ⟨-, -, -, -, e0, e1, -⟩ := idx_facts t
  unfold iblk1
  rw [View.read_apply]
  show (V c main_v24_0 : S50000x256.Idx → EReal) _ = _
  congr 1
  funext a
  apply Fin.ext
  match a with
  | ⟨0, _⟩ => show win1_2.index t (0 : Fin 2) * 2000 + 1 * r.val = 2000 * t.val + r.val; rw [e0]; omega
  | ⟨1, _⟩ => show win1_2.index t (1 : Fin 2) * 256 + 1 * j.val = j.val; rw [e1]; omega

theorem iblk_3 (c : Dev nD) (t : Fin cfg1.N) (j : Fin 256) (g : Fin 128) :
    (iblk1 V c 3 t : S256x128.Idx → EReal) (ix2 j g) = (V c main_arg7 : S256x128.Idx → EReal) (ix2 j g) := by
  obtain ⟨-, -, -, -, -, -, e0, e1, -⟩ := idx_facts t
  unfold iblk1
  rw [View.read_apply]
  show (V c main_arg7 : S256x128.Idx → EReal) _ = _
  congr 1
  funext a
  apply Fin.ext
  match a with
  | ⟨0, _⟩ => show win1_3.index t (0 : Fin 2) * 256 + 1 * j.val = j.val; rw [e0]; omega
  | ⟨1, _⟩ => show win1_3.index t (1 : Fin 2) * 128 + 1 * g.val = g.val; rw [e1]; omega

theorem iblk_4 (c : Dev nD) (t : Fin cfg1.N) (z : Fin 1) (g : Fin 128) :
    (iblk1 V c 4 t : S1x128.Idx → EReal) (ix2 z g) = (V c main_v35 : S1x128.Idx → EReal) (ix2 z g) := by
  obtain ⟨-, -, -, -, -, -, -, -, e0, e1, -⟩ := idx_facts t
  unfold iblk1
  rw [View.read_apply]
  show (V c main_v35 : S1x128.Idx → EReal) _ = _
  congr 1
  funext a
  apply Fin.ext
  match a with
  | ⟨0, _⟩ => show win1_4.index t (0 : Fin 2) * 1 + 1 * z.val = z.val; rw [e0]; omega
  | ⟨1, _⟩ => show win1_4.index t (1 : Fin 2) * 128 + 1 * g.val = g.val; rw [e1]; omega

/-- Where an element of the output's block at point `t` sits in the array. -/
theorem emb_5 (t : Fin cfg1.N) (r : Fin 2000) (g : Fin 128) :
    (((cfg1.win 5).blk t).view.emb (ix2 r g) : S50000x128.Idx) = ix2 (arow t r) g := by
  obtain ⟨-, -, -, -, -, -, -, -, -, -, e0, e1⟩ := idx_facts t
  funext a
  apply Fin.ext
  match a with
  | ⟨0, _⟩ => show win1_5.index t (0 : Fin 2) * 2000 + 1 * r.val = 2000 * t.val + r.val; rw [e0]; omega
  | ⟨1, _⟩ => show win1_5.index t (1 : Fin 2) * 128 + 1 * g.val = g.val; rw [e1]; omega

/-- What point `t` writes back is block `t` of the whole-array function. -/
theorem flushed_eq (c : Dev nD) (t : Fin cfg1.N) :
    (dat1 V c).flushed 5 t = ((cfg1.win 5).blk t).view.read (Elt Ideal)
      (fun i : S50000x128.Idx => out1 (V c main_v34) (V c main_v12) (V c main_v24_0) (V c main_arg7) (V c main_v35) (i 0) (i 1)) := by
  show (cfg1.win 5).cut (grid1.coords t) ((dat1 V c).after 5 t) = _
  rw [after1_5]
  unfold out1_5
  rw [View.canon_unit_zero hz]
  simp only [View.ld_unit_zero (S := S2000x1) hz, View.ld_unit_zero (S := S2000x128) hz,
    View.ld_unit_zero (S := S2000x256) hz, View.ld_unit_zero (S := S256x128) hz, View.ld_unit_zero (S := S1x128) hz]
  funext y
  obtain ⟨r, g, rfl⟩ : ∃ (r : Fin 2000) (g : Fin 128), y = ix2 r g := ⟨y 0, y 1, eq_ix2 y⟩
  rw [View.read_apply, emb_5]
  show k1_pay1 (F := Ideal) (iblk1 V c 1 t) (iblk1 V c 0 t) (iblk1 V c 2 t) (iblk1 V c 3 t) (iblk1 V c 4 t) (ix2 r g)
    = out1 (V c main_v34) (V c main_v12) (V c main_v24_0) (V c main_arg7) (V c main_v35) (arow t r) g
  rw [KBody.pay3_apply]
  unfold out1
  simp only [iblk_0, iblk_1, iblk_2, iblk_3, iblk_4]

theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v36).slice (win1_5.rect t)).set ↔ _
  rw [View.set_slice_whole, Rect.mem_set_unit]
  exact Iff.rfl

/-- Every index of the result array is in some point's block: row `n` in block `n / 2000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  obtain ⟨-, -, -, -, -, -, -, -, -, -, e0, e1⟩ := idx_facts ⟨(i 0).val / 2000, by rw [hN]; omega⟩
  rw [mem_blk]
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e1]; omega

/-- The result array after the last point. -/
theorem final (c : Dev nD) : (dat1 V c).arrAt 5 cfg1.N
    = fun i : S50000x128.Idx => out1 (V c main_v34) (V c main_v12) (V c main_v24_0) (V c main_arg7) (V c main_v35) (i 0) (i 1) :=
  (dat1 V c).arrAt_eq_of_cover 5 _ (fun t _ => flushed_eq V c t) cover

end Cert.Sage.KRegion1

end
-- ==== Proof.LibRowIndex.lean ====
/-
  ROWS READ AT AN INDEX: `stablehlo.gather` and the accumulating `stablehlo.scatter` along axis 0 of a
  rank-2 operand (and the scatter of a rank-1 operand), read at one element.

  * `x[idx]` of a table `x : [N, W]` at a column of start indices `idx : [E, 1]` gathers whole rows
    (offset axis 1, collapsed axis 0, start index map `[0]`, slice sizes `[1, W]`, index vector on axis 1):
    result element `(e, f)` is `x` at row `idx[e, 0]` — read as a signed integer and clamped into
    `[0, N − 1]` — and column `f` (`rowGather_apply`).
  * `x.at[idx].add(upd)` with `upd : [E, W]` adds whole rows (update window axis 1, inserted window
    axis 0, scatter-dims-to-operand-dims `[0]`, index vector on axis 1): update element `(e, f)` lands at
    `(idx[e, 0], f)` when the start index, read signed and NOT clamped, is a row of the operand, and is
    dropped otherwise. So element `(n, g)` of the result is `x (n, g)` plus the sum of `upd (e, g)` over
    the rows `e` whose start index is `n` (`rowScatterAdd_apply`); for a rank-1 operand `[N]` and
    updates `[E]` (no window axis) element `n` is `x n` plus the sum of `upd e` over those `e`
    (`vecScatterAdd_apply`).

  Every statement takes the dimension numbers as a variable record whose fields are given by
  hypotheses; the extents `N`, `E`, `W` stay variables.
-/
import Idealize.ShloMosaic.PureOps.Ideal
import Idealize.ShloMosaic.Lib.ValueIdx

noncomputable section

open scoped BigOperators

namespace Cert.Proof.LibRowIndex

open Idealize.ShloMosaic Idealize.ShloMosaic.ValueIdx

/-- On two axes, axis `1` is not axis `0`. -/
private theorem fin2_one_ne_zero : (1 : Fin 2) ≠ 0 := by decide

/-- An axis of the operand is kept by a scatter exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- A sum over `f` of terms that vanish unless `Q` holds and `f = g` is the one term at `g` when `Q`
    holds, and `0` otherwise. -/
theorem sum_ite_and_eq {M : Type*} [AddCommMonoid M] {n : Nat} (Q : Prop) [Decidable Q] (g : Fin n) (F : Fin n → M) :
    (∑ f, if Q ∧ f = g then F f else 0) = if Q then F g else 0 := by
  by_cases hq : Q
  · simp [hq]
  · simp [hq]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row gather -/

/-- The dimension numbers of a row gather as a literal record: operand `[N, W]`, start indices `[E, 1]`,
    result `[E, W]`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The operand row a row-gather reads for result row `e`: the start index read signed and clamped into
    `[0, N − 1]`. -/
def gatherRow {E w : Nat} (N : Nat) (hN : 0 < N) (idx : IVec (⟨2, ![E, 1]⟩ : Shape) w) (e : Fin E) : Fin N :=
  ⟨min (idx (ix2 e ⟨0, Nat.one_pos⟩)).toInt.toNat (N - 1), by omega⟩

/-- The row gather of the literal record at `(e, f)`: row `gatherRow … e`, column `f`. -/
theorem rowGatherDims_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec (⟨2, ![E, 1]⟩ : Shape) w) (e : Fin E) (f : Fin W) :
    Host.gather (rowGatherDims N E W wf) x idx (ix2 e f) = x (ix2 (gatherRow N hN idx e) f) := by
  unfold Host.gather
  congr 1
  funext a
  refine Fin.ext ?_
  match a with
  | ⟨0, _⟩ =>
    show (rowGatherDims N E W wf).start (ix2 e f) idx 0 + (rowGatherDims N E W wf).batchCoord (ix2 e f) 0
      + (rowGatherDims N E W wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e f) ⟨List.idxOf (0 : Fin 2) (rowGatherDims N E W wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E W wf).start (ix2 e f) idx 1 + (rowGatherDims N E W wf).batchCoord (ix2 e f) 1
      + (rowGatherDims N E W wf).offCoord (ix2 e f) 1 = f.val
    rw [GatherDims.batchCoord_eq_zero _ _ _ List.not_mem_nil]
    have hs : (rowGatherDims N E W wf).start (ix2 e f) idx 1 = 0 := by
      unfold GatherDims.start
      rw [dif_neg (fun h => absurd (List.mem_singleton.mp h) fin2_one_ne_zero)]
    rw [hs]
    simp only [Nat.add_zero, Nat.zero_add]
    unfold GatherDims.offCoord
    rw [dif_pos ((GatherDims.mem_sKept _ _).mpr
      ⟨fun h => absurd (List.mem_singleton.mp h) fin2_one_ne_zero, List.not_mem_nil⟩)]
    rfl

/-- THE ROW GATHER READ AT `(e, f)`, for any record with these dimension numbers. -/
theorem rowGather_apply {α : Type} {N E W w : Nat} (hN : 0 < N)
    (d : GatherDims (⟨2, ![N, W]⟩ : Shape) (⟨2, ![E, 1]⟩ : Shape) (⟨2, ![E, W]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, W])
    (x : (⟨2, ![N, W]⟩ : Shape).Idx → α) (idx : IVec (⟨2, ![E, 1]⟩ : Shape) w) (e : Fin E) (f : Fin W) :
    Host.gather d x idx (ix2 e f) = x (ix2 (gatherRow N hN idx e) f) := by
  obtain ⟨od, cd, ob, sb, sm, iv, ss, wf⟩ := d
  simp only at h1 h2 h3 h4 h5 h6 h7
  subst h1 h2 h3 h4 h5 h6 h7
  exact rowGatherDims_apply hN wf x idx e f

/-! ## The row scatter-add -/

/-- The dimension numbers of a row scatter as a literal record: operand `[N, W]`, scatter indices `[E, 1]`,
    updates `[E, W]`. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable {N E W w : Nat} (wf : ScatterDims.WF ⟨2, ![N, W]⟩ ⟨2, ![E, 1]⟩ ⟨2, ![E, W]⟩ [1] [0] [0] 1)
  (idx : IVec (⟨2, ![E, 1]⟩ : Shape) w) (e : Fin E) (f : Fin W)

/-- On axis 0 the window of update `(e, f)` starts at the start index `idx[e, 0]`, read signed. -/
theorem rowScatter_start0 :
    (rowScatterDims N E W wf).start (ix2 e f) idx 0 = (idx (ix2 e ⟨0, Nat.one_pos⟩)).toInt := by
  unfold ScatterDims.start
  rw [dif_pos (show (0 : Fin 2) ∈ (rowScatterDims N E W wf).scatterDimsToOperandDims from List.mem_singleton.mpr rfl)]
  have hsi : (rowScatterDims N E W wf).siIdx (ix2 e f)
      ⟨List.idxOf (0 : Fin 2) (rowScatterDims N E W wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On axis 1, which the map does not name, it starts at `0`. -/
theorem rowScatter_start1 : (rowScatterDims N E W wf).start (ix2 e f) idx 1 = 0 := by
  unfold ScatterDims.start
  rw [dif_neg (fun h => absurd (List.mem_singleton.mp h) fin2_one_ne_zero)]

/-- Axis 0 is inserted: window coordinate `0`. -/
theorem rowScatter_window0 : (rowScatterDims N E W wf).window (ix2 e f) 0 = 0 := by
  unfold ScatterDims.window
  rw [dif_neg (fun h => (scatter_mem_sKept _ _).mp h (List.mem_singleton.mpr rfl))]

/-- Axis 1 takes the update's window coordinate `f`. -/
theorem rowScatter_window1 : (rowScatterDims N E W wf).window (ix2 e f) 1 = f.val := by
  unfold ScatterDims.window
  rw [dif_pos ((scatter_mem_sKept _ _).mpr (fun h => absurd (List.mem_singleton.mp h) fin2_one_ne_zero))]
  rfl

/-- WHERE AN UPDATE LANDS: update `(e, f)` lands on element `(n, g)` exactly when its start index, read
    signed, is `n` and `f = g`. -/
theorem rowScatter_resultIdx_iff (n : Fin N) (g : Fin W) :
    (rowScatterDims N E W wf).resultIdx? (ix2 e f) idx = some (ix2 n g)
      ↔ (idx (ix2 e ⟨0, Nat.one_pos⟩)).toInt = (n.val : Int) ∧ f = g := by
  have s0 := rowScatter_start0 wf idx e f
  have s1 := rowScatter_start1 wf idx e f
  have w0 := rowScatter_window0 wf e f
  have w1 := rowScatter_window1 wf e f
  unfold ScatterDims.resultIdx?
  constructor
  · intro h
    split at h
    · rename_i hc
      have h' := Option.some.inj h
      have e0 : ((rowScatterDims N E W wf).start (ix2 e f) idx 0
          + ((rowScatterDims N E W wf).window (ix2 e f) 0 : Nat)).toNat = n.val :=
        congrArg (fun F : (⟨2, ![N, W]⟩ : Shape).Idx => (F 0).val) h'
      have e1 : ((rowScatterDims N E W wf).start (ix2 e f) idx 1
          + ((rowScatterDims N E W wf).window (ix2 e f) 1 : Nat)).toNat = g.val :=
        congrArg (fun F : (⟨2, ![N, W]⟩ : Shape).Idx => (F 1).val) h'
      have c0 := (hc 0).1
      rw [s0, w0] at e0 c0
      rw [s1, w1] at e1
      exact ⟨by omega, Fin.ext (by omega)⟩
    · exact absurd h (by simp)
  · rintro ⟨hz, rfl⟩
    have hc : ∀ a, 0 ≤ (rowScatterDims N E W wf).start (ix2 e f) idx a + ((rowScatterDims N E W wf).window (ix2 e f) a : Nat)
        ∧ (rowScatterDims N E W wf).start (ix2 e f) idx a + ((rowScatterDims N E W wf).window (ix2 e f) a : Nat)
          < ((⟨2, ![N, W]⟩ : Shape).size a : Nat) := by
      intro a
      match a with
      | ⟨0, _⟩ =>
        show 0 ≤ (rowScatterDims N E W wf).start (ix2 e f) idx 0 + ((rowScatterDims N E W wf).window (ix2 e f) 0 : Nat)
          ∧ (rowScatterDims N E W wf).start (ix2 e f) idx 0 + ((rowScatterDims N E W wf).window (ix2 e f) 0 : Nat) < (N : Int)
        rw [s0, w0, hz]
        have := n.isLt
        omega
      | ⟨1, _⟩ =>
        show 0 ≤ (rowScatterDims N E W wf).start (ix2 e f) idx 1 + ((rowScatterDims N E W wf).window (ix2 e f) 1 : Nat)
          ∧ (rowScatterDims N E W wf).start (ix2 e f) idx 1 + ((rowScatterDims N E W wf).window (ix2 e f) 1 : Nat) < (W : Int)
        rw [s1, w1]
        have := f.isLt
        omega
    rw [dif_pos hc]
    congr 1
    funext a
    refine Fin.ext ?_
    match a with
    | ⟨0, _⟩ =>
      show ((rowScatterDims N E W wf).start (ix2 e f) idx 0 + ((rowScatterDims N E W wf).window (ix2 e f) 0 : Nat)).toNat = n.val
      rw [s0, w0, hz]; omega
    | ⟨1, _⟩ =>
      show ((rowScatterDims N E W wf).start (ix2 e f) idx 1 + ((rowScatterDims N E W wf).window (ix2 e f) 1 : Nat)).toNat = f.val
      rw [s1, w1]; omega

end RowScatter

/-- The row scatter-add of the literal record at `(n, g)`: the operand's element plus the updates of
    column `g` in the rows whose start index is `n`. -/
theorem rowScatterDims_apply {N E W w : Nat} (wf : ScatterDims.WF ⟨2, ![N, W]⟩ ⟨2, ![E, 1]⟩ ⟨2, ![E, W]⟩ [1] [0] [0] 1)
    (x : (⟨2, ![N, W]⟩ : Shape).Idx → EReal) (idx : IVec (⟨2, ![E, 1]⟩ : Shape) w) (upd : (⟨2, ![E, W]⟩ : Shape).Idx → EReal)
    (n : Fin N) (g : Fin W) :
    Ideal.hostScatterAdd (rowScatterDims N E W wf) x idx upd (ix2 n g)
      = x (ix2 n g) + ∑ e ∈ Finset.univ.filter (fun e : Fin E => (idx (ix2 e ⟨0, Nat.one_pos⟩)).toInt = (n.val : Int)), upd (ix2 e g) := by
  unfold Ideal.hostScatterAdd
  congr 1
  rw [Finset.sum_filter, Finset.sum_filter, sum_idx2]
  refine Finset.sum_congr rfl fun e _ => ?_
  refine (Finset.sum_congr rfl fun f _ => if_congr (rowScatter_resultIdx_iff wf idx e f n g) rfl rfl).trans ?_
  exact sum_ite_and_eq _ g fun f => upd (ix2 e f)

/-- THE ROW SCATTER-ADD READ AT `(n, g)`, for any record with these dimension numbers. -/
theorem rowScatterAdd_apply {N E W w : Nat}
    (d : ScatterDims (⟨2, ![N, W]⟩ : Shape) (⟨2, ![E, 1]⟩ : Shape) (⟨2, ![E, W]⟩ : Shape))
    (h1 : d.updateWindowDims = [1]) (h2 : d.insertedWindowDims = [0]) (h3 : d.scatterDimsToOperandDims = [0])
    (h4 : d.indexVectorDim = 1)
    (x : (⟨2, ![N, W]⟩ : Shape).Idx → EReal) (idx : IVec (⟨2, ![E, 1]⟩ : Shape) w) (upd : (⟨2, ![E, W]⟩ : Shape).Idx → EReal)
    (n : Fin N) (g : Fin W) :
    Ideal.hostScatterAdd d x idx upd (ix2 n g)
      = x (ix2 n g) + ∑ e ∈ Finset.univ.filter (fun e : Fin E => (idx (ix2 e ⟨0, Nat.one_pos⟩)).toInt = (n.val : Int)), upd (ix2 e g) := by
  obtain ⟨uw, iw, sd, iv, wf⟩ := d
  simp only at h1 h2 h3 h4
  subst h1 h2 h3 h4
  exact rowScatterDims_apply wf x idx upd n g

/-- The same, as a program spells the accumulating scatter at the ideal instance. -/
theorem rowScatterAdd_apply' {N E W w : Nat}
    (d : ScatterDims (⟨2, ![N, W]⟩ : Shape) (⟨2, ![E, 1]⟩ : Shape) (⟨2, ![E, W]⟩ : Shape))
    (h1 : d.updateWindowDims = [1]) (h2 : d.insertedWindowDims = [0]) (h3 : d.scatterDimsToOperandDims = [0])
    (h4 : d.indexVectorDim = 1)
    (x : FVec Ideal (⟨2, ![N, W]⟩ : Shape) .f32) (idx : IVec (⟨2, ![E, 1]⟩ : Shape) w) (upd : FVec Ideal (⟨2, ![E, W]⟩ : Shape) .f32)
    (n : Fin N) (g : Fin W) :
    Host.scatterAdd (F := Ideal) (φ := .f32) d x idx upd (ix2 n g)
      = x (ix2 n g) + ∑ e ∈ Finset.univ.filter (fun e : Fin E => (idx (ix2 e ⟨0, Nat.one_pos⟩)).toInt = (n.val : Int)), upd (ix2 e g) :=
  rowScatterAdd_apply d h1 h2 h3 h4 x idx upd n g

/-! ## The scatter-add of a rank-1 operand -/

/-- The dimension numbers of a scatter into a rank-1 operand as a literal record: operand `[N]`, scatter
    indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)
  (idx : IVec (⟨2, ![E, 1]⟩ : Shape) w) (e : Fin E)

/-- The window of update `e` starts at the start index `idx[e, 0]`, read signed. -/
theorem vecScatter_start0 :
    (vecScatterDims N E wf).start (ix1 e) idx 0 = (idx (ix2 e ⟨0, Nat.one_pos⟩)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is inserted: window coordinate `0`. -/
theorem vecScatter_window0 : (vecScatterDims N E wf).window (ix1 e) 0 = 0 := by
  unfold ScatterDims.window
  rw [dif_neg (fun h => (scatter_mem_sKept _ _).mp h (List.mem_singleton.mpr rfl))]

/-- WHERE AN UPDATE LANDS: update `e` lands on element `n` exactly when its start index, read signed, is `n`. -/
theorem vecScatter_resultIdx_iff (n : Fin N) :
    (vecScatterDims N E wf).resultIdx? (ix1 e) idx = some (ix1 n)
      ↔ (idx (ix2 e ⟨0, Nat.one_pos⟩)).toInt = (n.val : Int) := by
  have s0 := vecScatter_start0 wf idx e
  have w0 := vecScatter_window0 wf e
  unfold ScatterDims.resultIdx?
  constructor
  · intro h
    split at h
    · rename_i hc
      have h' := Option.some.inj h
      have e0 : ((vecScatterDims N E wf).start (ix1 e) idx 0
          + ((vecScatterDims N E wf).window (ix1 e) 0 : Nat)).toNat = n.val :=
        congrArg (fun F : (⟨1, ![N]⟩ : Shape).Idx => (F 0).val) h'
      have c0 := (hc 0).1
      rw [s0, w0] at e0 c0
      omega
    · exact absurd h (by simp)
  · intro hz
    have hc : ∀ a, 0 ≤ (vecScatterDims N E wf).start (ix1 e) idx a + ((vecScatterDims N E wf).window (ix1 e) a : Nat)
        ∧ (vecScatterDims N E wf).start (ix1 e) idx a + ((vecScatterDims N E wf).window (ix1 e) a : Nat)
          < ((⟨1, ![N]⟩ : Shape).size a : Nat) := by
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [s0, w0, hz]
        have := n.isLt
        omega
    rw [dif_pos hc]
    congr 1
    funext a
    refine Fin.ext ?_
    match a with
    | ⟨0, _⟩ =>
      show ((vecScatterDims N E wf).start (ix1 e) idx 0 + ((vecScatterDims N E wf).window (ix1 e) 0 : Nat)).toNat = n.val
      rw [s0, w0, hz]; omega

end VecScatter

/-- The scatter-add into a rank-1 operand, for the literal record, at `n`: the operand's element plus the
    updates whose start index is `n`. -/
theorem vecScatterDims_apply {N E w : Nat} (wf : ScatterDims.WF ⟨1, ![N]⟩ ⟨2, ![E, 1]⟩ ⟨1, ![E]⟩ [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e ⟨0, Nat.one_pos⟩)).toInt = (n.val : Int)), upd (ix1 e) := by
  unfold Ideal.hostScatterAdd
  congr 1
  rw [Finset.sum_filter, Finset.sum_filter, sum_idx1]
  exact Finset.sum_congr rfl fun e _ => if_congr (vecScatter_resultIdx_iff wf idx e n) rfl rfl

/-- THE SCATTER-ADD INTO A RANK-1 OPERAND READ AT `n`, for any record with these dimension numbers. -/
theorem vecScatterAdd_apply {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (x : (⟨1, ![N]⟩ : Shape).Idx → EReal) (idx : IVec (⟨2, ![E, 1]⟩ : Shape) w) (upd : (⟨1, ![E]⟩ : Shape).Idx → EReal) (n : Fin N) :
    Ideal.hostScatterAdd d x idx upd (ix1 n)
      = x (ix1 n) + ∑ e ∈ Finset.univ.filter (fun e : Fin E => (idx (ix2 e ⟨0, Nat.one_pos⟩)).toInt = (n.val : Int)), upd (ix1 e) := by
  obtain ⟨uw, iw, sd, iv, wf⟩ := d
  simp only at h1 h2 h3 h4
  subst h1 h2 h3 h4
  exact vecScatterDims_apply wf x idx upd n

/-- The same, as a program spells the accumulating scatter at the ideal instance. -/
theorem vecScatterAdd_apply' {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (x : FVec Ideal (⟨1, ![N]⟩ : Shape) .f32) (idx : IVec (⟨2, ![E, 1]⟩ : Shape) w) (upd : FVec Ideal (⟨1, ![E]⟩ : Shape) .f32) (n : Fin N) :
    Host.scatterAdd (F := Ideal) (φ := .f32) d x idx upd (ix1 n)
      = x (ix1 n) + ∑ e ∈ Finset.univ.filter (fun e : Fin E => (idx (ix2 e ⟨0, Nat.one_pos⟩)).toInt = (n.val : Int)), upd (ix1 e) :=
  vecScatterAdd_apply d h1 h2 h3 h4 x idx upd n

end Cert.Proof.LibRowIndex

end
-- ==== Proof.Spec.lean ====
/-
  A two-layer graph convolution with mean aggregation over a fixed edge list, written index by index over the
  extended reals in the two arrangements that are compared.

  An edge `e` carries a source row `src e` (its start index read signed and clamped into the node range) and lands
  on the node `n` whose number its destination index, read signed, equals (an edge whose destination is no node
  lands nowhere). The neighbour sum of a node-indexed array at `n` adds the rows `src e` over the edges landing on
  `n`; the count is the number of those edges, raised to at least one.

  Layer one: `hid = max (mean-aggregate(x) · W1l + b1 + x · W1r) 0`. Layer two, the reference's arrangement:
  aggregate the hidden rows, divide by the count, multiply by `W2l`. The other arrangement multiplies each hidden
  row by `W2l` first (`prj`), aggregates the narrower rows, and multiplies by the reciprocal of the count.
-/
import Idealize.ShloMosaic.PureOps.Ideal
import Idealize.ShloMosaic.Lib.ValueIdx

noncomputable section

namespace Cert.Sage

open Idealize.ShloMosaic Idealize.ShloMosaic.ValueIdx

/-- The edges landing on node `n`: those whose destination index, read signed, is `n`. -/
def inE (δ : IVec (⟨2, ![800000, 1]⟩ : Shape) 32) (n : Fin 50000) : Finset (Fin 800000) :=
  Finset.univ.filter fun e : Fin 800000 => (δ (ix2 e ⟨0, Nat.one_pos⟩)).toInt = (n.val : Int)

/-- The source row of edge `e`. -/
def src (ι : IVec (⟨2, ![800000, 1]⟩ : Shape) 32) (e : Fin 800000) : Fin 50000 :=
  ⟨min (ι (ix2 e ⟨0, Nat.one_pos⟩)).toInt.toNat (50000 - 1), by omega⟩

section
variable (ι δ : IVec (⟨2, ![800000, 1]⟩ : Shape) 32)

/-- The neighbour sum of a node-indexed array: at node `n`, the rows `src e` added over the edges landing on `n`. -/
def nsum {W : Nat} (a : Fin 50000 → Fin W → EReal) (n : Fin 50000) (f : Fin W) : EReal :=
  ∑ e ∈ inE δ n, a (src ι e) f

/-- The number of edges landing on `n`, at least one. -/
def cnt (n : Fin 50000) : EReal := max (∑ _e ∈ inE δ n, (1 : EReal)) 1

/-- The reciprocal of the count. -/
def inv (n : Fin 50000) : EReal := Ideal.div 1 (cnt δ n)

variable (x : Fin 50000 → Fin 128 → EReal) (w1l : Fin 128 → Fin 256 → EReal) (b1 : Fin 256 → EReal)
  (w1r : Fin 128 → Fin 256 → EReal) (w2l : Fin 256 → Fin 128 → EReal) (b2 : Fin 128 → EReal)
  (w2r : Fin 256 → Fin 128 → EReal)

/-- The hidden layer, dividing the neighbour sum by the count. -/
def hidR (n : Fin 50000) (j : Fin 256) : EReal :=
  max (((∑ k : Fin 128, Ideal.div (nsum ι δ x n k) (cnt δ n) * w1l k j) + b1 j) + ∑ k : Fin 128, x n k * w1r k j) 0

/-- The output, aggregating the hidden rows and then multiplying by `w2l`. -/
def outR (n : Fin 50000) (g : Fin 128) : EReal :=
  ((∑ j : Fin 256, Ideal.div (nsum ι δ (hidR ι δ x w1l b1 w1r) n j) (cnt δ n) * w2l j g) + b2 g)
    + ∑ j : Fin 256, hidR ι δ x w1l b1 w1r n j * w2r j g

/-- The hidden layer, multiplying the neighbour sum by the reciprocal of the count. -/
def hidK (n : Fin 50000) (j : Fin 256) : EReal :=
  max (((∑ k : Fin 128, (nsum ι δ x n k * inv δ n) * w1l k j) + ∑ k : Fin 128, x n k * w1r k j) + b1 j) 0

/-- The hidden rows multiplied by `w2l`. -/
def prj (n : Fin 50000) (g : Fin 128) : EReal := ∑ j : Fin 256, hidK ι δ x w1l b1 w1r n j * w2l j g

/-- The output, aggregating the projected rows. -/
def outK (n : Fin 50000) (g : Fin 128) : EReal :=
  ((∑ j : Fin 256, hidK ι δ x w1l b1 w1r n j * w2r j g) + nsum ι δ (prj ι δ x w1l b1 w1r w2l) n g * inv δ n) + b2 g

end

end Cert.Sage

end
-- ==== Proof.KHost.lean ====
/-
  The host operations of the kernel's program between its two kernels, read as values.

  Before the first kernel: the edge list is cut into the source and destination index vectors; the count of edges per
  destination (a scatter-add of ones), raised to at least one, and its reciprocal as a column; the rows gathered at the
  sources and scatter-added at the destinations (the neighbour sums). Before the second kernel the same gather and
  scatter-add are applied to the first kernel's second result. Read at an index, a scatter-add into zeros of gathered
  rows is the neighbour sum of the spec; the column is the spec's reciprocal count.
-/
import proofs.«141152_j33432025432488_2_alg».proof.Proof.Gen.KernelIdeal.Launch
import proofs.«141152_j33432025432488_2_alg».proof.Proof.LibRowIndex
import proofs.«141152_j33432025432488_2_alg».proof.Proof.Spec
import Idealize.ShloMosaic.Lib.StableHlo.Run
import Idealize.ShloMosaic.Lib.Pipeline.Value
import Idealize.ShloMosaic.Lib.ValueIdx
import Idealize.ShloMosaic.Lib.IdealHost

set_option maxRecDepth 16384

noncomputable section

namespace Cert.Sage.KHost

open Idealize.ShloMosaic Idealize.ShloMosaic.TcCoe Idealize.ShloMosaic.ValueIdx Idealize.SL.Sem Idealize.ShloMosaic.StableHlo
open Cert.KernelIdeal Cert.KernelIdeal.Gen Cert.Proof.LibRowIndex

/-! ## The index vectors -/

/-- Row 0 of the edge list, flat: the sources. -/
def flat0 (a1 : IVec S2x800000 32) : IVec S800000 32 :=
  shapeCast _ (extractStridedSlice S1x800000 ![0, 0] a1 slices_S2x800000_S1x800000_0_0) shapeCasts_S1x800000_S800000

/-- Row 1 of the edge list, flat: the destinations. -/
def flat1 (a1 : IVec S2x800000 32) : IVec S800000 32 :=
  shapeCast _ (extractStridedSlice S1x800000 ![1, 0] a1 slices_S2x800000_S1x800000_1_0) shapeCasts_S1x800000_S800000

/-- The gather's start indices: a negative source index is raised by the number of nodes. -/
def srcOf (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The scatter's indices. -/
def dstOf (v3 : IVec S800000 32) : IVec S800000x1 32 := broadcastInDim S800000x1 ![0] bcast_S800000_S800000x1_0 v3

/-- Rows gathered at the sources and scatter-added at the destinations, into zeros. -/
def agg (ι δ : IVec S800000x1 32) (a : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) δ
    (Host.gather gather_S50000x128_S800000x1_S800000x128_1_0_n_n_0_1_1128 a ι)

/-- The reciprocal counts as a column. -/
def invCol (δ : IVec S800000x1 32) : FVec Ideal S50000x1 .f32 :=
  shapeCast _ (Host.divf (broadcastInDim S50000 ![] bcast_S_S50000 (constant S_ .f32 0x3F800000#32))
    (maximumf (Host.scatterAdd scatter_S50000_S800000x1_S800000_n_0_0_1
        (broadcastInDim S50000 ![] bcast_S_S50000 (constant S_ .f32 0x00000000#32)) δ
        (broadcastInDim S800000 ![] bcast_S_S800000 (constant S_ .f32 0x3F800000#32)))
      (broadcastInDim S50000 ![] bcast_S_S50000 (constant S_ .f32 0x3F800000#32)))) shapeCasts_S50000_S50000x1

/-! ## The host stretches, buffer by buffer -/

section Stretches
variable (W : Valuation τ sig (Elt Ideal))

theorem h0_v1 : after hostOps0 W (Proc.devRef .tc main_v1) = flat0 (W (Proc.devRef .tc main_arg1)) := by
  after_results_simp <;> rfl
theorem h0_v3 : after hostOps0 W (Proc.devRef .tc main_v3) = flat1 (W (Proc.devRef .tc main_arg1)) := by
  after_results_simp <;> rfl
theorem h0_v22 : after hostOps0 W (Proc.devRef .tc main_v22)
    = agg (srcOf (flat0 (W (Proc.devRef .tc main_arg1)))) (dstOf (flat1 (W (Proc.devRef .tc main_arg1)))) (W (Proc.devRef .tc main_arg0)) := by
  after_results_simp <;> rfl
theorem h0_v12 : after hostOps0 W (Proc.devRef .tc main_v12) = invCol (dstOf (flat1 (W (Proc.devRef .tc main_arg1)))) := by
  after_results_simp <;> rfl
theorem h0_v23 : after hostOps0 W (Proc.devRef .tc main_v23) = shapeCast _ (W (Proc.devRef .tc main_arg3) : FVec Ideal S256 .f32) shapeCasts_S256_S1x256 := by
  after_results_simp <;> rfl
theorem h0_arg0 : after hostOps0 W (Proc.devRef .tc main_arg0) = W (Proc.devRef .tc main_arg0) := by after_results_simp <;> rfl
theorem h0_arg2 : after hostOps0 W (Proc.devRef .tc main_arg2) = W (Proc.devRef .tc main_arg2) := by after_results_simp <;> rfl
theorem h0_arg4 : after hostOps0 W (Proc.devRef .tc main_arg4) = W (Proc.devRef .tc main_arg4) := by after_results_simp <;> rfl
theorem h0_arg5 : after hostOps0 W (Proc.devRef .tc main_arg5) = W (Proc.devRef .tc main_arg5) := by after_results_simp <;> rfl
theorem h0_arg6 : after hostOps0 W (Proc.devRef .tc main_arg6) = W (Proc.devRef .tc main_arg6) := by after_results_simp <;> rfl
theorem h0_arg7 : after hostOps0 W (Proc.devRef .tc main_arg7) = W (Proc.devRef .tc main_arg7) := by after_results_simp <;> rfl

theorem h1_v34 : after hostOps1 W (Proc.devRef .tc main_v34)
    = agg (srcOf (W (Proc.devRef .tc main_v1))) (dstOf (W (Proc.devRef .tc main_v3))) (W (Proc.devRef .tc main_v24_1)) := by
  after_results_simp <;> rfl
theorem h1_v35 : after hostOps1 W (Proc.devRef .tc main_v35) = shapeCast _ (W (Proc.devRef .tc main_arg6) : FVec Ideal S128 .f32) shapeCasts_S128_S1x128 := by
  after_results_simp <;> rfl
theorem h1_v12 : after hostOps1 W (Proc.devRef .tc main_v12) = W (Proc.devRef .tc main_v12) := by after_results_simp <;> rfl
theorem h1_v24_0 : after hostOps1 W (Proc.devRef .tc main_v24_0) = W (Proc.devRef .tc main_v24_0) := by after_results_simp <;> rfl
theorem h1_arg7 : after hostOps1 W (Proc.devRef .tc main_arg7) = W (Proc.devRef .tc main_arg7) := by after_results_simp <;> rfl

end Stretches

/-! ## Read at an index -/

/-- A broadcast scalar constant, read anywhere, is the constant's value. -/
theorem bcast_const_apply {t : Shape} (dims : Fin S_.rank → Fin t.rank) (h : S_.BroadcastsInDim t dims) (b : BitVec 32) (i : t.Idx) :
    broadcastInDim t dims h (constant (F := Ideal) S_ .f32 b) i = Ideal.ofBits .f32 b := rfl

/-- The host's quotient is the exact quotient, index by index. -/
theorem hostDivf_apply {s : Shape} (x y : FVec Ideal s .f32) (i : s.Idx) : Host.divf x y i = Ideal.div (x i) (y i) := rfl

/-- The aggregation at `(n, g)` is the spec's neighbour sum. -/
theorem agg_apply (ι δ : IVec S800000x1 32) (a : FVec Ideal S50000x128 .f32) (n : Fin 50000) (g : Fin 128) :
    agg ι δ a (ix2 n g) = Cert.Sage.nsum ι δ (fun n k => a (ix2 n k)) n g := by
  unfold agg
  rw [rowScatterAdd_apply' scatter_S50000x128_S800000x1_S800000x128_1_0_0_1 rfl rfl rfl rfl]
  rw [bcast_const_apply, Ideal.ofBits_zero_f32, zero_add]
  unfold Cert.Sage.nsum Cert.Sage.inE
  refine Finset.sum_congr (by congr) fun e _ => ?_
  exact rowGather_apply (by decide) gather_S50000x128_S800000x1_S800000x128_1_0_n_n_0_1_1128 rfl rfl rfl rfl rfl rfl rfl a ι e g

/-- A flat vector cast to a column reads, at `(i, 0)`, the vector at `i`. -/
theorem shapeCast_col_apply {α : Type} {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The column at row `n` is the spec's reciprocal count. -/
theorem invCol_apply (δ : IVec S800000x1 32) (n : Fin 50000) (u : Fin 1) :
    invCol δ (ix2 n u) = Cert.Sage.inv δ n := by
  unfold invCol
  rw [shapeCast_col_apply]
  rw [hostDivf_apply, maximumf_apply, vecScatterAdd_apply' scatter_S50000_S800000x1_S800000_n_0_0_1 rfl rfl rfl rfl]
  simp only [bcast_const_apply, Ideal.ofBits_zero_f32, Ideal.ofBits_one_f32, zero_add]
  unfold Cert.Sage.inv Cert.Sage.cnt Cert.Sage.inE
  rfl

end Cert.Sage.KHost

end
-- ==== Proof.KValue.lean ====
/-
  The kernel program's result as one function of its arguments: the spec's second arrangement.

  The contents at each segment boundary are read back through the four segments: the second kernel's result array is
  its whole-array function of what the second host stretch leaves, which is the neighbour sum of the first kernel's
  projected rows, the reciprocal counts, the first kernel's hidden rows, and two arguments; the first kernel's arrays
  are its whole-array functions of what the first host stretch leaves, the neighbour sum of the features, the
  reciprocal counts and four arguments.
-/
import proofs.«141152_j33432025432488_2_alg».proof.Proof.KernelRun
import proofs.«141152_j33432025432488_2_alg».proof.Proof.KRegion0
import proofs.«141152_j33432025432488_2_alg».proof.Proof.KRegion1
import proofs.«141152_j33432025432488_2_alg».proof.Proof.KHost
import Idealize.ShloMosaic.Lib.ValueLayout

set_option maxRecDepth 16384

noncomputable section

namespace Cert.Sage.KValue

open Idealize.ShloMosaic Idealize.ShloMosaic.TcCoe Idealize.ShloMosaic.ValueIdx Idealize.SL.Sem
open Cert.KernelIdeal Cert.KernelIdeal.Gen Cert.Sage.KHost

section Arrays
variable (ι δ : IVec S800000x1 32) (a0 : FVec Ideal S50000x128 .f32) (a2 : FVec Ideal S128x256 .f32)
  (a3 : FVec Ideal S256 .f32) (a4 : FVec Ideal S128x256 .f32) (a5 : FVec Ideal S256x128 .f32)
  (a6 : FVec Ideal S128 .f32) (a7 : FVec Ideal S256x128 .f32)

/-- The first kernel's first result is the spec's hidden layer. -/
theorem hid_eq (n : Fin 50000) (j : Fin 256) :
    KRegion0.hid0 (agg ι δ a0) (invCol δ) a0 a2 a4 (shapeCast _ a3 shapeCasts_S256_S1x256) n j
      = Cert.Sage.hidK ι δ (fun n k => a0 (ix2 n k)) (fun k j => a2 (ix2 k j)) (fun j => a3 (ix1 j)) (fun k j => a4 (ix2 k j)) n j := by
  unfold KRegion0.hid0 Cert.Sage.hidK
  simp only [agg_apply, invCol_apply, shapeCast_a_1a_apply]

/-- The first kernel's second result is the spec's projected hidden layer. -/
theorem prj_eq (n : Fin 50000) (g : Fin 128) :
    KRegion0.prj0 (agg ι δ a0) (invCol δ) a0 a2 a4 (shapeCast _ a3 shapeCasts_S256_S1x256) a5 n g
      = Cert.Sage.prj ι δ (fun n k => a0 (ix2 n k)) (fun k j => a2 (ix2 k j)) (fun j => a3 (ix1 j)) (fun k j => a4 (ix2 k j))
          (fun j g => a5 (ix2 j g)) n g := by
  unfold KRegion0.prj0 Cert.Sage.prj
  simp only [hid_eq]

/-- The second kernel's result, over the first kernel's two results, is the spec's output. -/
theorem out_eq (n : Fin 50000) (g : Fin 128) :
    KRegion1.out1
        (agg ι δ (fun i : S50000x128.Idx => KRegion0.prj0 (agg ι δ a0) (invCol δ) a0 a2 a4 (shapeCast _ a3 shapeCasts_S256_S1x256) a5 (i 0) (i 1)))
        (invCol δ)
        (fun i : S50000x256.Idx => KRegion0.hid0 (agg ι δ a0) (invCol δ) a0 a2 a4 (shapeCast _ a3 shapeCasts_S256_S1x256) (i 0) (i 1))
        a7 (shapeCast _ a6 shapeCasts_S128_S1x128) n g
      = Cert.Sage.outK ι δ (fun n k => a0 (ix2 n k)) (fun k j => a2 (ix2 k j)) (fun j => a3 (ix1 j)) (fun k j => a4 (ix2 k j))
          (fun j g => a5 (ix2 j g)) (fun g => a6 (ix1 g)) (fun j g => a7 (ix2 j g)) n g := by
  unfold KRegion1.out1 Cert.Sage.outK
  simp only [agg_apply, invCol_apply, shapeCast_a_1a_apply]
  show ((∑ j : Fin 256, KRegion0.hid0 (agg ι δ a0) (invCol δ) a0 a2 a4 (shapeCast _ a3 shapeCasts_S256_S1x256) n j * a7 (ix2 j g))
      + Cert.Sage.nsum ι δ (fun n k => KRegion0.prj0 (agg ι δ a0) (invCol δ) a0 a2 a4 (shapeCast _ a3 shapeCasts_S256_S1x256) a5 n k) n g
        * Cert.Sage.inv δ n) + a6 (ix1 g) = _
  simp only [hid_eq, prj_eq]

end Arrays

section Run
variable (m : (ℓ : Loc nD τ sig) → Buf (Elt Ideal) ℓ) (ρ : Dev nD → PrngReg)

/-- The start indices and the destinations, from the launch memory's edge list. -/
abbrev kι (c : Dev nD) : IVec S800000x1 32 := srcOf (flat0 (m ((c : Thread nD τ).loc main_arg1)))
abbrev kδ (c : Dev nD) : IVec S800000x1 32 := dstOf (flat1 (m ((c : Thread nD τ).loc main_arg1)))

/-- What the first host stretch leaves, at the buffers the first kernel reads. -/
theorem v1_v22 (c : Dev nD) : V1 m ρ c main_v22 = agg (kι m c) (kδ m c) (m ((c : Thread nD τ).loc main_arg0)) := h0_v22 (W0 m ρ c)
theorem v1_v12 (c : Dev nD) : V1 m ρ c main_v12 = invCol (kδ m c) := h0_v12 (W0 m ρ c)
theorem v1_v23 (c : Dev nD) : V1 m ρ c main_v23 = shapeCast _ (m ((c : Thread nD τ).loc main_arg3) : FVec Ideal S256 .f32) shapeCasts_S256_S1x256 := h0_v23 (W0 m ρ c)
theorem v1_arg0 (c : Dev nD) : V1 m ρ c main_arg0 = m ((c : Thread nD τ).loc main_arg0) := h0_arg0 (W0 m ρ c)
theorem v1_arg2 (c : Dev nD) : V1 m ρ c main_arg2 = m ((c : Thread nD τ).loc main_arg2) := h0_arg2 (W0 m ρ c)
theorem v1_arg4 (c : Dev nD) : V1 m ρ c main_arg4 = m ((c : Thread nD τ).loc main_arg4) := h0_arg4 (W0 m ρ c)
theorem v1_arg5 (c : Dev nD) : V1 m ρ c main_arg5 = m ((c : Thread nD τ).loc main_arg5) := h0_arg5 (W0 m ρ c)

/-- The first kernel's hidden rows, as the second host stretch finds them. -/
abbrev H (c : Dev nD) : S50000x256.Idx → EReal := fun i =>
  KRegion0.hid0 (agg (kι m c) (kδ m c) (m ((c : Thread nD τ).loc main_arg0))) (invCol (kδ m c)) (m ((c : Thread nD τ).loc main_arg0))
    (m ((c : Thread nD τ).loc main_arg2)) (m ((c : Thread nD τ).loc main_arg4))
    (shapeCast _ (m ((c : Thread nD τ).loc main_arg3) : FVec Ideal S256 .f32) shapeCasts_S256_S1x256) (i 0) (i 1)

/-- The first kernel's projected rows. -/
abbrev P (c : Dev nD) : S50000x128.Idx → EReal := fun i =>
  KRegion0.prj0 (agg (kι m c) (kδ m c) (m ((c : Thread nD τ).loc main_arg0))) (invCol (kδ m c)) (m ((c : Thread nD τ).loc main_arg0))
    (m ((c : Thread nD τ).loc main_arg2)) (m ((c : Thread nD τ).loc main_arg4))
    (shapeCast _ (m ((c : Thread nD τ).loc main_arg3) : FVec Ideal S256 .f32) shapeCasts_S256_S1x256)
    (m ((c : Thread nD τ).loc main_arg5)) (i 0) (i 1)

/-- After the first kernel: its two result arrays. -/
theorem w2_v24_0 (c : Dev nD) : W2 m ρ c (Proc.devRef .tc main_v24_0) = H m c := by
  refine (W2_arr m ρ c 7).trans ?_
  rw [KRegion0.final7 (V1 m ρ) c, v1_v22, v1_v12, v1_v23, v1_arg0, v1_arg2, v1_arg4]
theorem w2_v24_1 (c : Dev nD) : W2 m ρ c (Proc.devRef .tc main_v24_1) = P m c := by
  refine (W2_arr m ρ c 8).trans ?_
  rw [KRegion0.final8 (V1 m ρ) c, v1_v22, v1_v12, v1_v23, v1_arg0, v1_arg2, v1_arg4, v1_arg5]

/-- After the first kernel: the buffers it only reads or does not touch. -/
theorem w2_v12 (c : Dev nD) : W2 m ρ c (Proc.devRef .tc main_v12) = invCol (kδ m c) :=
  ((W2_arr m ρ c 1).trans (((dat0 (V1 m ρ) c).arrAt_in 1 rfl _).trans (A_eq0 (V1 m ρ) c 1))).trans (v1_v12 m ρ c)
theorem w2_v1 (c : Dev nD) : W2 m ρ c (Proc.devRef .tc main_v1) = flat0 (m ((c : Thread nD τ).loc main_arg1)) :=
  (W2_of_ne m ρ c main_v1 (by decide)).trans (h0_v1 (W0 m ρ c))
theorem w2_v3 (c : Dev nD) : W2 m ρ c (Proc.devRef .tc main_v3) = flat1 (m ((c : Thread nD τ).loc main_arg1)) :=
  (W2_of_ne m ρ c main_v3 (by decide)).trans (h0_v3 (W0 m ρ c))
theorem w2_arg6 (c : Dev nD) : W2 m ρ c (Proc.devRef .tc main_arg6) = m ((c : Thread nD τ).loc main_arg6) :=
  (W2_of_ne m ρ c main_arg6 (by decide)).trans (h0_arg6 (W0 m ρ c))
theorem w2_arg7 (c : Dev nD) : W2 m ρ c (Proc.devRef .tc main_arg7) = m ((c : Thread nD τ).loc main_arg7) :=
  (W2_of_ne m ρ c main_arg7 (by decide)).trans (h0_arg7 (W0 m ρ c))

/-- What the second host stretch leaves, at the buffers the second kernel reads. -/
theorem v3_v34 (c : Dev nD) : V3 m ρ c main_v34 = agg (kι m c) (kδ m c) (P m c) := by
  refine (h1_v34 (W2 m ρ c)).trans ?_
  rw [w2_v1, w2_v3, w2_v24_1]
theorem v3_v12 (c : Dev nD) : V3 m ρ c main_v12 = invCol (kδ m c) := (h1_v12 (W2 m ρ c)).trans (w2_v12 m ρ c)
theorem v3_v24_0 (c : Dev nD) : V3 m ρ c main_v24_0 = H m c := (h1_v24_0 (W2 m ρ c)).trans (w2_v24_0 m ρ c)
theorem v3_arg7 (c : Dev nD) : V3 m ρ c main_arg7 = m ((c : Thread nD τ).loc main_arg7) := (h1_arg7 (W2 m ρ c)).trans (w2_arg7 m ρ c)
theorem v3_v35 (c : Dev nD) : V3 m ρ c main_v35
    = shapeCast _ (m ((c : Thread nD τ).loc main_arg6) : FVec Ideal S128 .f32) shapeCasts_S128_S1x128 := by
  refine (h1_v35 (W2 m ρ c)).trans ?_
  rw [w2_arg6]

/-- The spec's second arrangement at the launch memory's arguments. -/
abbrev specK (c : Dev nD) : S50000x128.Idx → EReal := fun i =>
  Cert.Sage.outK (kι m c) (kδ m c) (fun n k => m ((c : Thread nD τ).loc main_arg0) (ix2 n k))
    (fun k j => m ((c : Thread nD τ).loc main_arg2) (ix2 k j)) (fun j => m ((c : Thread nD τ).loc main_arg3) (ix1 j))
    (fun k j => m ((c : Thread nD τ).loc main_arg4) (ix2 k j)) (fun j g => m ((c : Thread nD τ).loc main_arg5) (ix2 j g))
    (fun g => m ((c : Thread nD τ).loc main_arg6) (ix1 g)) (fun j g => m ((c : Thread nD τ).loc main_arg7) (ix2 j g)) (i 0) (i 1)

/-- The result buffer after the last segment. -/
theorem result_eq (c : Dev nD) : W4 m ρ c (Proc.devRef .tc main_v36) = specK m c := by
  refine (W4_arr m ρ c 5).trans ?_
  rw [KRegion1.final (V3 m ρ) c, v3_v34, v3_v12, v3_v24_0, v3_arg7, v3_v35]
  funext i
  exact out_eq (kι m c) (kδ m c) _ _ _ _ _ _ _ (i 0) (i 1)

/-- The kernel program's run, with the result at the spec's second arrangement. -/
theorem run : θ_run defs (onTc (τ := τ) (main (F := Ideal))) ⟨m, fun _ => 0, ρ⟩ (fun r => ∀ c : Dev nD,
      r.2.mem ((c.tc : Thread nD τ).loc main_v36) = specK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_result m ρ)

end Run

end Cert.Sage.KValue

end
-- ==== Proof.RefValue.lean ====
/-
  The reference program's result, read at an index: it is the output `outR` of the two-layer mean aggregation,
  at the start and destination indices the program derives from the edge list.

  A scatter-add of gathered rows into zeros is the neighbour sum; a scatter-add of ones into zeros, raised to at
  least one, is the count; a matrix product read at an index is the sum over the contracted coordinate. The stages
  are read bottom-up: the count, the first neighbour sum, the hidden layer, the second neighbour sum, the output.
-/
import proofs.«141152_j33432025432488_2_alg».proof.Proof.Gen.ReferenceIdeal.Read
import proofs.«141152_j33432025432488_2_alg».proof.Proof.Spec
import proofs.«141152_j33432025432488_2_alg».proof.Proof.LibRowIndex
import Idealize.ShloMosaic.Lib.StackMember
import Idealize.ShloMosaic.Lib.IdealHost
import Idealize.ShloMosaic.Lib.Pipeline.Value
import Idealize.ShloMosaic.Lib.ValueIdx

noncomputable section

namespace Cert.Sage.RefValue

open Idealize.ShloMosaic Idealize.ShloMosaic.ValueIdx Cert.ReferenceIdeal Cert.ReferenceIdeal.Read
  Cert.Proof.LibRowIndex

/-- The gather's start indices, as the reference spells them from the edge list. -/
def srcIdx (a1 : IVec Cert.ReferenceIdeal.S2x800000 32) : IVec (⟨2, ![800000, 1]⟩ : Shape) 32 :=
  Cert.ReferenceIdeal.Read.val_main_v9 (F := Ideal) a1

/-- The scatter's indices, as the reference spells them from the edge list. -/
def dstIdx (a1 : IVec Cert.ReferenceIdeal.S2x800000 32) : IVec (⟨2, ![800000, 1]⟩ : Shape) 32 :=
  Cert.ReferenceIdeal.Read.val_main_v12 (F := Ideal) a1

/-! ### Two generic readings -/

/-- A scatter-add of gathered rows into zeros, read at `(n, f)`, is the neighbour sum. -/
theorem scatter_gather {W : Nat}
    (dg : GatherDims (⟨2, ![50000, W]⟩ : Shape) (⟨2, ![800000, 1]⟩ : Shape) (⟨2, ![800000, W]⟩ : Shape))
    (g1 : dg.offsetDims = [1]) (g2 : dg.collapsedSliceDims = [0]) (g3 : dg.operandBatchingDims = [])
    (g4 : dg.startIndicesBatchingDims = []) (g5 : dg.startIndexMap = [0]) (g6 : dg.indexVectorDim = 1)
    (g7 : dg.sliceSizes = ![1, W])
    (ds : ScatterDims (⟨2, ![50000, W]⟩ : Shape) (⟨2, ![800000, 1]⟩ : Shape) (⟨2, ![800000, W]⟩ : Shape))
    (s1 : ds.updateWindowDims = [1]) (s2 : ds.insertedWindowDims = [0]) (s3 : ds.scatterDimsToOperandDims = [0])
    (s4 : ds.indexVectorDim = 1)
    (z x : FVec Ideal (⟨2, ![50000, W]⟩ : Shape) .f32) (hz : ∀ i, (z i : EReal) = 0)
    (ι δ : IVec (⟨2, ![800000, 1]⟩ : Shape) 32) (n : Fin 50000) (f : Fin W) :
    Host.scatterAdd (F := Ideal) (φ := .f32) ds z δ (Host.gather dg x ι) (ix2 n f)
      = nsum ι δ (fun m k => (x (ix2 m k) : EReal)) n f := by
  rw [rowScatterAdd_apply' ds s1 s2 s3 s4, hz, zero_add]
  unfold nsum inE
  refine Finset.sum_congr rfl fun e _ => ?_
  rw [rowGather_apply (by decide : 0 < 50000) dg g1 g2 g3 g4 g5 g6 g7]
  rfl

/-- A scatter-add of ones into zeros, raised to at least one, read at `n`, is the count. -/
theorem count_scatter
    (ds : ScatterDims (⟨1, ![50000]⟩ : Shape) (⟨2, ![800000, 1]⟩ : Shape) (⟨1, ![800000]⟩ : Shape))
    (s1 : ds.updateWindowDims = []) (s2 : ds.insertedWindowDims = [0]) (s3 : ds.scatterDimsToOperandDims = [0])
    (s4 : ds.indexVectorDim = 1)
    (z o : FVec Ideal (⟨1, ![50000]⟩ : Shape) .f32) (u : FVec Ideal (⟨1, ![800000]⟩ : Shape) .f32)
    (hz : ∀ i, (z i : EReal) = 0) (hu : ∀ i, (u i : EReal) = 1) (ho : ∀ i, (o i : EReal) = 1)
    (δ : IVec (⟨2, ![800000, 1]⟩ : Shape) 32) (n : Fin 50000) :
    maximumf (Host.scatterAdd (F := Ideal) (φ := .f32) ds z δ u) o (ix1 n) = cnt δ n := by
  show max (Host.scatterAdd (F := Ideal) (φ := .f32) ds z δ u (ix1 n) : EReal) (o (ix1 n)) = _
  rw [vecScatterAdd_apply' ds s1 s2 s3 s4, hz, zero_add, ho]
  unfold cnt inE
  rw [Finset.sum_congr rfl fun e _ => hu (ix1 e)]

/-! ### The constants -/

theorem v11_zero (i : S50000x128.Idx) : (val_main_v11 (F := Ideal) i : EReal) = 0 := by
  rw [val_main_v11_apply, val_main_cst_apply]; exact Ideal.ofBits_zero_f32
theorem v15_zero (i : S50000.Idx) : (val_main_v15 (F := Ideal) i : EReal) = 0 := by
  rw [val_main_v15_apply, val_main_cst_2_apply]; exact Ideal.ofBits_zero_f32
theorem v14_one (i : S800000.Idx) : (val_main_v14 (F := Ideal) i : EReal) = 1 := by
  rw [val_main_v14_apply, val_main_cst_1_apply]; exact Ideal.ofBits_one_f32
theorem v18_one (i : S50000.Idx) : (val_main_v18 (F := Ideal) i : EReal) = 1 := by
  rw [val_main_v18_apply, val_main_cst_3_apply]; exact Ideal.ofBits_one_f32

/-! ### The index arrays the program repeats -/

theorem v16_eq (a1 : IVec S2x800000 32) : val_main_v16 (F := Ideal) a1 = dstIdx a1 := rfl
theorem v38_eq (a1 : IVec S2x800000 32) : val_main_v38 (F := Ideal) a1 = dstIdx a1 := rfl
theorem v42_eq (a1 : IVec S2x800000 32) : val_main_v42 (F := Ideal) a1 = dstIdx a1 := rfl
theorem v35_eq (a1 : IVec S2x800000 32) : val_main_v35 (F := Ideal) a1 = srcIdx a1 := rfl

/-! ### (1) The count -/

theorem v19_at (a1 : IVec S2x800000 32) (n : Fin 50000) :
    (val_main_v19 (F := Ideal) a1 (ix1 n) : EReal) = cnt (dstIdx a1) n := by
  unfold val_main_v19 val_main_v17
  rw [v16_eq]
  exact count_scatter _ rfl rfl rfl rfl _ _ _ v15_zero v14_one v18_one (dstIdx a1) n

/-! ### (2) The first neighbour sum -/

theorem v13_at (a0 : FVec Ideal S50000x128 .f32) (a1 : IVec S2x800000 32) (n : Fin 50000) (k : Fin 128) :
    (val_main_v13 (F := Ideal) a0 a1 (ix2 n k) : EReal)
      = nsum (srcIdx a1) (dstIdx a1) (fun m c => (a0 (ix2 m c) : EReal)) n k := by
  unfold val_main_v13 val_main_v10
  exact scatter_gather _ rfl rfl rfl rfl rfl rfl rfl _ rfl rfl rfl rfl _ a0 v11_zero (srcIdx a1) (dstIdx a1) n k

/-! ### A matrix product read at an index -/

/-- The product of an `M×K` by a `K×N` matrix at `(a, b)` is the sum over the contracted coordinate. -/
theorem dot_at {M K N : Nat} (d : DotDims (⟨2, ![M, K]⟩ : Shape) (⟨2, ![K, N]⟩ : Shape) (⟨2, ![M, N]⟩ : Shape))
    (hd : d = DotDims.plain M K N) (A : FVec Ideal (⟨2, ![M, K]⟩ : Shape) .f32)
    (B : FVec Ideal (⟨2, ![K, N]⟩ : Shape) .f32) (a : Fin M) (b : Fin N) :
    (Host.dotGeneral d none A B (ix2 a b) : EReal) = ∑ c : Fin K, (A (ix2 a c) : EReal) * B (ix2 c b) := by
  subst hd
  exact StackMember.dotGeneral_plain_apply none A B a b

/-- The two printed product records are the plain ones. -/
theorem dot1_eq : dot_S50000x128_S128x256_S50000x256_1_0_0_1_n_n = DotDims.plain 50000 128 256 := rfl
theorem dot2_eq : dot_S50000x256_S256x128_S50000x128_1_0_0_1_n_n = DotDims.plain 50000 256 128 := rfl

/-! ### More constants -/

theorem call0_zero (i : S50000x256.Idx) : (val_main_call0_v0 (F := Ideal) i : EReal) = 0 := by
  rw [val_main_call0_v0_apply, val_main_call0_cst_apply]; exact Ideal.ofBits_zero_f32
theorem v37_zero (i : S50000x256.Idx) : (val_main_v37 (F := Ideal) i : EReal) = 0 := by
  rw [val_main_v37_apply, val_main_cst_6_apply]; exact Ideal.ofBits_zero_f32
theorem v41_zero (i : S50000.Idx) : (val_main_v41 (F := Ideal) i : EReal) = 0 := by
  rw [val_main_v41_apply, val_main_cst_8_apply]; exact Ideal.ofBits_zero_f32
theorem v40_one (i : S800000.Idx) : (val_main_v40 (F := Ideal) i : EReal) = 1 := by
  rw [val_main_v40_apply, val_main_cst_7_apply]; exact Ideal.ofBits_one_f32
theorem v44_one (i : S50000.Idx) : (val_main_v44 (F := Ideal) i : EReal) = 1 := by
  rw [val_main_v44_apply, val_main_cst_9_apply]; exact Ideal.ofBits_one_f32

section
variable (a0 : FVec Ideal S50000x128 .f32) (a1 : IVec S2x800000 32) (a2 : FVec Ideal S128x256 .f32)
  (a3 : FVec Ideal S256 .f32) (a4 : FVec Ideal S128x256 .f32) (a5 : FVec Ideal S256x128 .f32)
  (a6 : FVec Ideal S128 .f32) (a7 : FVec Ideal S256x128 .f32)

local notation "xx" => (fun (m : Fin 50000) (c : Fin 128) => (a0 (ix2 m c) : EReal))
local notation "hh" => hidR (srcIdx a1) (dstIdx a1) xx (fun (k : Fin 128) (j : Fin 256) => (a2 (ix2 k j) : EReal))
  (fun (j : Fin 256) => (a3 (ix1 j) : EReal)) (fun (k : Fin 128) (j : Fin 256) => (a4 (ix2 k j) : EReal))

/-! ### (3) The hidden layer -/

/-- The count broadcast along the rows of the first layer. -/
theorem v21_at (n : Fin 50000) (k : Fin 128) :
    (val_main_v21 (F := Ideal) a1 (ix2 n k) : EReal) = cnt (dstIdx a1) n := by
  rw [val_main_v21_apply, val_main_v20_apply]
  have hi : idx_main_v20 (idx_main_v21 (ix2 n k)) = ix1 n := funext fun a => match a with | ⟨0, _⟩ => rfl
  rw [hi, v19_at]

theorem v22_at (n : Fin 50000) (k : Fin 128) :
    (val_main_v22 (F := Ideal) a0 a1 (ix2 n k) : EReal)
      = Ideal.div (nsum (srcIdx a1) (dstIdx a1) xx n k) (cnt (dstIdx a1) n) := by
  rw [val_main_v22_apply, Ideal.hostDivf_def, v13_at, v21_at]

theorem v23_at (n : Fin 50000) (j : Fin 256) :
    (val_main_v23 (F := Ideal) a0 a1 a2 (ix2 n j) : EReal)
      = ∑ k : Fin 128, Ideal.div (nsum (srcIdx a1) (dstIdx a1) xx n k) (cnt (dstIdx a1) n) * (a2 (ix2 k j) : EReal) := by
  unfold val_main_v23
  refine (dot_at _ dot1_eq _ _ n j).trans (Finset.sum_congr rfl fun k _ => ?_)
  rw [v22_at]

/-- The bias broadcast down the rows. -/
theorem v25_at (n : Fin 50000) (j : Fin 256) : (val_main_v25 (F := Ideal) a3 (ix2 n j) : EReal) = a3 (ix1 j) := by
  rw [val_main_v25_apply, val_main_v24_apply]
  exact congrArg a3 (funext fun a => match a with | ⟨0, _⟩ => rfl)

theorem v27_at (n : Fin 50000) (j : Fin 256) :
    (val_main_v27 (F := Ideal) a0 a4 (ix2 n j) : EReal) = ∑ k : Fin 128, (a0 (ix2 n k) : EReal) * a4 (ix2 k j) := by
  unfold val_main_v27
  exact dot_at _ dot1_eq a0 a4 n j

theorem v29_at (n : Fin 50000) (j : Fin 256) :
    (val_main_v29 (F := Ideal) a0 a1 a2 a3 a4 (ix2 n j) : EReal) = hh n j := by
  rw [val_main_v29_apply, val_main_v28_apply, val_main_v26_apply]
  simp only [Ideal.maximumf_def, Ideal.addf_def]
  rw [v23_at, v25_at, v27_at, call0_zero]
  unfold hidR
  rfl

/-! ### (4) The second neighbour sum and count -/

theorem v39_at (n : Fin 50000) (j : Fin 256) :
    (val_main_v39 (F := Ideal) a0 a1 a2 a3 a4 (ix2 n j) : EReal) = nsum (srcIdx a1) (dstIdx a1) hh n j := by
  unfold val_main_v39 val_main_v36
  rw [v38_eq, v35_eq,
    scatter_gather _ rfl rfl rfl rfl rfl rfl rfl _ rfl rfl rfl rfl _ (val_main_v29 (F := Ideal) a0 a1 a2 a3 a4)
      v37_zero (srcIdx a1) (dstIdx a1) n j]
  have hf : (fun (m : Fin 50000) (k : Fin 256) => (val_main_v29 (F := Ideal) a0 a1 a2 a3 a4 (ix2 m k) : EReal)) = hh :=
    funext fun m => funext fun k => v29_at a0 a1 a2 a3 a4 m k
  rw [hf]

theorem v45_at (n : Fin 50000) : (val_main_v45 (F := Ideal) a1 (ix1 n) : EReal) = cnt (dstIdx a1) n := by
  unfold val_main_v45 val_main_v43
  rw [v42_eq]
  exact count_scatter _ rfl rfl rfl rfl _ _ _ v41_zero v40_one v44_one (dstIdx a1) n

/-- The count broadcast along the rows of the second layer. -/
theorem v47_at (n : Fin 50000) (j : Fin 256) :
    (val_main_v47 (F := Ideal) a1 (ix2 n j) : EReal) = cnt (dstIdx a1) n := by
  rw [val_main_v47_apply, val_main_v46_apply]
  have hi : idx_main_v46 (idx_main_v47 (ix2 n j)) = ix1 n := funext fun a => match a with | ⟨0, _⟩ => rfl
  rw [hi, v45_at]

theorem v48_at (n : Fin 50000) (j : Fin 256) :
    (val_main_v48 (F := Ideal) a0 a1 a2 a3 a4 (ix2 n j) : EReal)
      = Ideal.div (nsum (srcIdx a1) (dstIdx a1) hh n j) (cnt (dstIdx a1) n) := by
  rw [val_main_v48_apply, Ideal.hostDivf_def, v39_at, v47_at]

/-! ### (5) The output -/

theorem v49_at (n : Fin 50000) (g : Fin 128) :
    (val_main_v49 (F := Ideal) a0 a1 a2 a3 a4 a5 (ix2 n g) : EReal)
      = ∑ j : Fin 256, Ideal.div (nsum (srcIdx a1) (dstIdx a1) hh n j) (cnt (dstIdx a1) n) * (a5 (ix2 j g) : EReal) := by
  unfold val_main_v49
  refine (dot_at _ dot2_eq _ _ n g).trans (Finset.sum_congr rfl fun j _ => ?_)
  rw [v48_at]

/-- The second bias broadcast down the rows. -/
theorem v51_at (n : Fin 50000) (g : Fin 128) : (val_main_v51 (F := Ideal) a6 (ix2 n g) : EReal) = a6 (ix1 g) := by
  rw [val_main_v51_apply, val_main_v50_apply]
  exact congrArg a6 (funext fun a => match a with | ⟨0, _⟩ => rfl)

theorem v53_at (n : Fin 50000) (g : Fin 128) :
    (val_main_v53 (F := Ideal) a0 a1 a2 a3 a4 a7 (ix2 n g) : EReal) = ∑ j : Fin 256, hh n j * (a7 (ix2 j g) : EReal) := by
  unfold val_main_v53
  refine (dot_at _ dot2_eq _ _ n g).trans (Finset.sum_congr rfl fun j _ => ?_)
  rw [v29_at]

/-- The reference's result at `(n, g)`. -/
theorem v54_at (n : Fin 50000) (g : Fin 128) :
    (val_main_v54 (F := Ideal) a0 a1 a2 a3 a4 a5 a6 a7 (ix2 n g) : EReal)
      = outR (srcIdx a1) (dstIdx a1) xx (fun (k : Fin 128) (j : Fin 256) => (a2 (ix2 k j) : EReal))
          (fun (j : Fin 256) => (a3 (ix1 j) : EReal)) (fun (k : Fin 128) (j : Fin 256) => (a4 (ix2 k j) : EReal))
          (fun (j : Fin 256) (g : Fin 128) => (a5 (ix2 j g) : EReal)) (fun (g : Fin 128) => (a6 (ix1 g) : EReal))
          (fun (j : Fin 256) (g : Fin 128) => (a7 (ix2 j g) : EReal)) n g := by
  rw [val_main_v54_apply, val_main_v52_apply]
  simp only [Ideal.addf_def]
  rw [v49_at, v51_at, v53_at]
  unfold outR
  rfl

end

/-- The reference's result is the output `outR` at the indices it derives from the edge list. -/
theorem ref_eq (a0 : FVec Ideal Cert.ReferenceIdeal.S50000x128 .f32) (a1 : IVec Cert.ReferenceIdeal.S2x800000 32)
    (a2 : FVec Ideal Cert.ReferenceIdeal.S128x256 .f32) (a3 : FVec Ideal Cert.ReferenceIdeal.S256 .f32)
    (a4 : FVec Ideal Cert.ReferenceIdeal.S128x256 .f32) (a5 : FVec Ideal Cert.ReferenceIdeal.S256x128 .f32)
    (a6 : FVec Ideal Cert.ReferenceIdeal.S128 .f32) (a7 : FVec Ideal Cert.ReferenceIdeal.S256x128 .f32) :
    Cert.ReferenceIdeal.Read.val_main_v54 (F := Ideal) a0 a1 a2 a3 a4 a5 a6 a7
      = fun i => Cert.Sage.outR (srcIdx a1) (dstIdx a1) (fun n k => a0 (ix2 n k)) (fun k j => a2 (ix2 k j)) (fun j => a3 (ix1 j))
          (fun k j => a4 (ix2 k j)) (fun j g => a5 (ix2 j g)) (fun g => a6 (ix1 g)) (fun j g => a7 (ix2 j g)) (i 0) (i 1) := by
  funext i
  exact (congrArg (val_main_v54 (F := Ideal) a0 a1 a2 a3 a4 a5 a6 a7) (eq_ix2 i)).trans
    (v54_at a0 a1 a2 a3 a4 a5 a6 a7 (i 0) (i 1))

end Cert.Sage.RefValue

end
-- ==== Proof.Algebra.lean ====
/-
  The two arrangements of the two-layer mean-aggregation agree over the extended reals when the inputs are reals.

  The count of a node is a real at least one, so dividing by it is multiplying by a real reciprocal, for every
  extended real numerator. The first layers then differ only in the order of three summands. For the second layer
  the hidden rows are reals (sums, products and maxima of reals), and for real entries the aggregate of the projected
  rows times the reciprocal is the projected aggregate-times-reciprocal: an exchange of two finite sums and
  distributivity, carried out in the reals and read through the coercion.
-/
import proofs.«141152_j33432025432488_2_alg».proof.Proof.Spec

noncomputable section

namespace Cert.Sage

open Idealize.ShloMosaic Idealize.ShloMosaic.ValueIdx

/-! ### Extended reals that are reals -/

/-- The extended real `v` is a real. -/
def IsR (v : EReal) : Prop := ∃ r : ℝ, v = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha
  obtain ⟨s, rfl⟩ := hb
  exact ⟨r + s, (EReal.coe_add r s).symm⟩

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.max {a b : EReal} (ha : IsR a) (hb : IsR b) : IsR (max a b) := by
  rcases max_choice a b with h | h
  · rw [h]; exact ha
  · rw [h]; exact hb

theorem IsR.sum {α : Type*} (s : Finset α) (f : α → EReal) (h : ∀ i ∈ s, IsR (f i)) :
    IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-! ### The coercion and finite sums, maxima -/

/-- The coercion of the reals commutes with finite sums. -/
theorem coe_sum {α : Type*} (s : Finset α) (f : α → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion of the reals commutes with the maximum. -/
theorem coe_max (a b : ℝ) : ((Max.max a b : ℝ) : EReal) = Max.max (a : EReal) (b : EReal) :=
  EReal.coe_strictMono.monotone.map_max

/-- Adding `1` over a finite set gives its number of elements. -/
theorem sum_one_eq_card {α : Type*} (s : Finset α) :
    (∑ _i ∈ s, (1 : EReal)) = (((s.card : ℕ) : ℝ) : EReal) := by
  classical
  induction s using Finset.induction_on with
  | empty => rw [Finset.sum_empty, Finset.card_empty, Nat.cast_zero, EReal.coe_zero]
  | insert a s ha ih =>
    rw [Finset.sum_insert ha, Finset.card_insert_of_notMem ha, Nat.cast_add, Nat.cast_one, EReal.coe_add,
      EReal.coe_one, ih, add_comm]

/-! ### The exchange of sums behind the second layer -/

/-- In the reals: the aggregate of the projected rows times `c` is the projection of the aggregate-times-`c`. -/
theorem agg_swap {E J : Type*} [Fintype J] (S : Finset E) (h : E → J → ℝ) (w : J → ℝ) (c : ℝ) :
    (∑ e ∈ S, ∑ j, h e j * w j) * c = ∑ j, ((∑ e ∈ S, h e j) * c) * w j := by
  rw [Finset.sum_comm, Finset.sum_mul]
  refine Finset.sum_congr rfl fun j _ => ?_
  rw [← Finset.sum_mul, mul_right_comm]

/-- The same identity for real entries read in the extended reals. -/
theorem agg_swap_coe {E J : Type*} [Fintype J] (S : Finset E) (h : E → J → ℝ) (w : J → ℝ) (c : ℝ) :
    (∑ e ∈ S, ∑ j, (h e j : EReal) * (w j : EReal)) * (c : EReal)
      = ∑ j, ((∑ e ∈ S, (h e j : EReal)) * (c : EReal)) * (w j : EReal) := by
  simp only [← EReal.coe_mul, ← coe_sum]
  rw [agg_swap]

/-! ### The count and its reciprocal -/

section
variable (ι δ : IVec (⟨2, ![800000, 1]⟩ : Shape) 32)

/-- The count is a nonzero real. -/
theorem cnt_real (n : Fin 50000) : ∃ c : ℝ, c ≠ 0 ∧ cnt δ n = (c : EReal) := by
  refine ⟨Max.max (((inE δ n).card : ℕ) : ℝ) 1, ?_, ?_⟩
  · exact (lt_of_lt_of_le one_pos (le_max_right _ _)).ne'
  · rw [cnt, sum_one_eq_card, coe_max, EReal.coe_one]

/-- Dividing by the count is multiplying by its reciprocal, whatever the numerator. -/
theorem div_cnt (n : Fin 50000) (a : EReal) : Ideal.div a (cnt δ n) = a * inv δ n := by
  obtain ⟨c, hc, h⟩ := cnt_real δ n
  rw [inv, h, Ideal.div_coe hc, Ideal.div_coe hc, one_mul]

/-- The reciprocal of the count is a real. -/
theorem inv_isR (n : Fin 50000) : IsR (inv δ n) := by
  obtain ⟨c, hc, h⟩ := cnt_real δ n
  rw [inv, h, Ideal.div_coe hc, one_mul]
  exact IsR.coe _

/-- The neighbour sum of a real array is real. -/
theorem nsum_isR {W : Nat} (a : Fin 50000 → Fin W → EReal) (ha : ∀ n f, IsR (a n f)) (n : Fin 50000) (f : Fin W) :
    IsR (nsum ι δ a n f) :=
  IsR.sum _ _ fun e _ => ha (src ι e) f

variable (x : Fin 50000 → Fin 128 → EReal) (w1l : Fin 128 → Fin 256 → EReal) (b1 : Fin 256 → EReal)
  (w1r : Fin 128 → Fin 256 → EReal) (w2l : Fin 256 → Fin 128 → EReal) (b2 : Fin 128 → EReal)
  (w2r : Fin 256 → Fin 128 → EReal)

/-! ### The first layer -/

/-- The two hidden layers agree: the same three summands in two orders. -/
theorem hidK_eq_hidR : hidK ι δ x w1l b1 w1r = hidR ι δ x w1l b1 w1r := by
  funext n j
  simp only [hidK, hidR, div_cnt]
  rw [add_right_comm]

/-- The hidden layer of real inputs is real. -/
theorem hidK_isR (hx : ∀ n k, IsR (x n k)) (hw1l : ∀ k j, IsR (w1l k j)) (hb1 : ∀ j, IsR (b1 j))
    (hw1r : ∀ k j, IsR (w1r k j)) (n : Fin 50000) (j : Fin 256) : IsR (hidK ι δ x w1l b1 w1r n j) := by
  unfold hidK
  refine IsR.max (IsR.add (IsR.add ?_ ?_) (hb1 j)) IsR.zero
  · exact IsR.sum _ _ fun k _ => ((nsum_isR ι δ x hx n k).mul (inv_isR δ n)).mul (hw1l k j)
  · exact IsR.sum _ _ fun k _ => (hx n k).mul (hw1r k j)

/-! ### The second layer -/

/-- The two outputs agree for real inputs. -/
theorem outK_eq_outR
    (hx : ∀ n k, ∃ r : ℝ, x n k = (r : EReal)) (hw1l : ∀ k j, ∃ r : ℝ, w1l k j = (r : EReal))
    (hb1 : ∀ j, ∃ r : ℝ, b1 j = (r : EReal)) (hw1r : ∀ k j, ∃ r : ℝ, w1r k j = (r : EReal))
    (hw2l : ∀ j g, ∃ r : ℝ, w2l j g = (r : EReal)) :
    outK ι δ x w1l b1 w1r w2l b2 w2r = outR ι δ x w1l b1 w1r w2l b2 w2r := by
  funext n g
  have hreal : ∀ m j, IsR (hidK ι δ x w1l b1 w1r m j) := hidK_isR ι δ x w1l b1 w1r hx hw1l hb1 hw1r
  obtain ⟨c, hc⟩ := inv_isR δ n
  choose hr hhr using hreal
  choose wr hwr using hw2l
  have key : nsum ι δ (prj ι δ x w1l b1 w1r w2l) n g * inv δ n
      = ∑ j : Fin 256, (nsum ι δ (hidK ι δ x w1l b1 w1r) n j * inv δ n) * w2l j g := by
    simp only [nsum, prj, hhr, hwr, hc]
    exact agg_swap_coe (inE δ n) (fun e j => hr (src ι e) j) (fun j => wr j g) c
  simp only [outK, outR, div_cnt, ← hidK_eq_hidR, key]
  rw [add_comm (∑ j : Fin 256, hidK ι δ x w1l b1 w1r n j * w2r j g), add_right_comm]

end

end Cert.Sage

end
-- ==== Proof.Finite.lean ====
/-
  The precondition's finiteness clauses, read back: every float input whose clause is used below is a real.

  Each clause is the conjunction, over all entries of one input, of `|a i| < +∞`; the precondition is the
  conjunction of the clauses. A conjunction that is 1 has both conjuncts 1, a conjunction over all entries that is 1
  has every entry 1, and an extended real whose absolute value `max x (-x)` is below `⊤` is neither `⊤` nor `⊥`.
-/
import proofs.«141152_j33432025432488_2_alg».proof.Pre_finite_inputs
import proofs.«141152_j33432025432488_2_alg».proof.Proof.Gen.Pre_finite_inputs
import Idealize.ShloMosaic.Lib.ReduceAll
import Idealize.ShloMosaic.Lib.ValueIdx

noncomputable section

namespace Cert.Sage.Finite

open Idealize.ShloMosaic

/-- An extended real whose absolute value compares below the pattern of `+∞` is a real. -/
theorem real_of_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A pointwise conjunction that is 1 at an index has both conjuncts 1 there. -/
theorem andi_eq_one {s : Shape} (p q : IVec s 1) (i : s.Idx) (h : andi p q i = 1#1) : p i = 1#1 ∧ q i = 1#1 :=
  IntOp.andi_eq_one.1 h

/-- If the conjunction over all entries of `|a i| < +∞` is 1, every entry of `a` is a real. -/
theorem all_real_of_reduce {z s t u : Shape} {axes : List (Fin s.rank)} [Subsingleton t.Idx]
    (a : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
        (cmpf .olt (Host.absf a) (broadcastInDim s dims hb (constant z .f32 0x7F800000#32))) init hr hu j = 1#1)
    (i : s.Idx) : ∃ r : ℝ, a i = (r : EReal) :=
  real_of_lt_top (a i) (Host.reduce_andi_all _ init hr hu j e i)

/-- Under the precondition the first five float inputs are reals. -/
theorem reals_of_pre [Cert.Pre_finite_inputs.Facts]
    (a0 : FVec Ideal Cert.Pre_finite_inputs.S50000x128 .f32) (a1 : IVec Cert.Pre_finite_inputs.S2x800000 32)
    (a2 : FVec Ideal Cert.Pre_finite_inputs.S128x256 .f32) (a3 : FVec Ideal Cert.Pre_finite_inputs.S256 .f32)
    (a4 : FVec Ideal Cert.Pre_finite_inputs.S128x256 .f32) (a5 : FVec Ideal Cert.Pre_finite_inputs.S256x128 .f32)
    (a6 : FVec Ideal Cert.Pre_finite_inputs.S128 .f32) (a7 : FVec Ideal Cert.Pre_finite_inputs.S256x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h28, _⟩ := andi_eq_one _ _ _ h0
  obtain ⟨h23, _⟩ := andi_eq_one _ _ _ h28
  obtain ⟨h18, h22⟩ := andi_eq_one _ _ _ h23
  obtain ⟨h13, h17⟩ := andi_eq_one _ _ _ h18
  obtain ⟨h8, h12⟩ := andi_eq_one _ _ _ h13
  obtain ⟨h3, h7⟩ := andi_eq_one _ _ _ h8
  exact ⟨all_real_of_reduce a0 _ _ _ _ _ _ h3, all_real_of_reduce a2 _ _ _ _ _ _ h7,
    all_real_of_reduce a3 _ _ _ _ _ _ h12, all_real_of_reduce a4 _ _ _ _ _ _ h17,
    all_real_of_reduce a5 _ _ _ _ _ _ h22⟩

end Cert.Sage.Finite

end
-- ==== Proof.lean ====
/-
  A two-layer graph convolution with mean aggregation: the kernel program against its reference, at the exact instance.

  Both programs cut the edge list into source and destination index vectors, count the edges per destination and
  aggregate rows by a gather at the sources and a scatter-add at the destinations. The reference divides each
  aggregated row by the count (at least one) and multiplies by a weight matrix, in both layers. The kernel program
  multiplies by the reciprocal of the count; in the second layer it multiplies each hidden row by the weight matrix
  BEFORE aggregating, so that the aggregation moves rows half as wide. The two agree because aggregation is linear:
  `(∑ₑ h[src e,·]) · W / c = (∑ₑ h[src e,·] · W) · (1/c)`. On the extended reals that exchange of sums and the
  distributive law need every term finite, which the precondition gives: finite features, weights and biases make
  the hidden layer finite, and the count is a positive number. The first layer needs no finiteness: there the two
  differ only in `x / c` against `x · (1/c)` and in the order of three summands.

  The kernel program's value is read off its run through its four segments (two host stretches, two kernels over 25
  row blocks each); the reference's is its generated run read one operation at a time.
-/
import proofs.«141152_j33432025432488_2_alg».proof.Defs
import proofs.«141152_j33432025432488_2_alg».proof.Proof.Gen.Kernel
import proofs.«141152_j33432025432488_2_alg».proof.Proof.Gen.Kernel.Skeleton
import proofs.«141152_j33432025432488_2_alg».proof.Proof.Gen.Kernel.Launch
import proofs.«141152_j33432025432488_2_alg».proof.Proof.Gen.Kernel.Points
import proofs.«141152_j33432025432488_2_alg».proof.Proof.Gen.Kernel.Frame
import proofs.«141152_j33432025432488_2_alg».proof.Proof.Gen.KernelIdeal
import proofs.«141152_j33432025432488_2_alg».proof.Proof.Gen.KernelIdeal.Skeleton
import proofs.«141152_j33432025432488_2_alg».proof.Proof.Gen.KernelIdeal.Launch
import proofs.«141152_j33432025432488_2_alg».proof.Proof.Gen.KernelIdeal.Points
import proofs.«141152_j33432025432488_2_alg».proof.Proof.Gen.KernelIdeal.Frame
import proofs.«141152_j33432025432488_2_alg».proof.Proof.Gen.ReferenceIdeal
import proofs.«141152_j33432025432488_2_alg».proof.Proof.Gen.Pre_finite_inputs
import proofs.«141152_j33432025432488_2_alg».proof.Proof.Gen.ReferenceIdeal.Run
import proofs.«141152_j33432025432488_2_alg».proof.Proof.Gen.ReferenceIdeal.Read
import proofs.«141152_j33432025432488_2_alg».proof.Proof.KValue
import proofs.«141152_j33432025432488_2_alg».proof.Proof.RefValue
import proofs.«141152_j33432025432488_2_alg».proof.Proof.Algebra
import proofs.«141152_j33432025432488_2_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two index vectors are spelt by the same operations in both programs. -/
theorem src_eq (a1 : IVec Cert.KernelIdeal.S2x800000 32) :
    Cert.Sage.RefValue.srcIdx a1 = Cert.Sage.KHost.srcOf (Cert.Sage.KHost.flat0 a1) := rfl

theorem dst_eq (a1 : IVec Cert.KernelIdeal.S2x800000 32) :
    Cert.Sage.RefValue.dstIdx a1 = Cert.Sage.KHost.dstOf (Cert.Sage.KHost.flat1 a1) := rfl

/-- Both programs end, from memories agreeing on the arguments, with the same result: the kernel program at the
    spec's second arrangement, the reference at its first, equal where the inputs are finite. -/
theorem algebraic : Cert.algebraic_KernelIdeal_ReferenceIdeal := by
  intro m ρ m' ρ' hpre hagree
  refine ⟨fun c => Cert.Sage.KValue.specK m c, Cert.Sage.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨r0, r2, r3, r4, r5⟩ := Cert.Sage.Finite.reals_of_pre _ _ _ _ _ _ _ _ (hpre c)
  rw [Cert.ReferenceIdeal.Read.val_main_v54_eq, Cert.Sage.RefValue.ref_eq, h0, h1, h2, h3, h4, h5, h6, h7, src_eq, dst_eq]
  funext i
  exact (congrFun (congrFun (Cert.Sage.outK_eq_outR _ _ _ _ _ _ _ _ _ (fun n k => r0 (ix2 n k)) (fun k j => r2 (ix2 k j))
    (fun j => r3 (ix1 j)) (fun k j => r4 (ix2 k j)) (fun j g => r5 (ix2 j g))) (i 0)) (i 1)).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
